-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S128x64 : Shape := ⟨2, ![128, 64]⟩
abbrev S128 : Shape := ⟨1, ![128]⟩
abbrev S128x128 : Shape := ⟨2, ![128, 128]⟩
abbrev S2x128 : Shape := ⟨2, ![2, 128]⟩
abbrev S2 : Shape := ⟨1, ![2]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S2x128 : S_.BroadcastsInDim S2x128 (![] : Fin 0 → Fin S2x128.rank)
  reducesTo_S2x128_S_d0_1 : S2x128.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg8 : FVec F S2x128 .f32) (main_arg9 : FVec F S2 .f32) (main_v33 : IVec S_ 1) : IVec S_ 1 :=
  let main_v34 : FVec F S2x128 .f32 := Host.absf main_arg8
  let main_cst_12 : FVec F S_ .f32 := constant S_ .f32 0x7F800000#32
  let main_v35 : FVec F S2x128 .f32 := broadcastInDim S2x128 ![] bcast_S_S2x128 main_cst_12
  let main_v36 : IVec S2x128 1 := cmpf .olt main_v34 main_v35
  let main_c_13 : IVec S_ 1 := constantI S_ 1 1#1
  let main_v37 : IVec S_ 1 := (fun x v => Host.reduce IntOp.andi x v reducesTo_S2x128_S_d0_1 h_S_) main_v36 main_c_13
  let main_v38 : IVec S_ 1 := andi main_v33 main_v37
  let main_v39 : FVec F S2 .f32 := Host.absf main_arg9
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  main_v43

def fn_part1 {F : FTy → Type} [FloatOps F] (main_arg5 : FVec F S128x128 .f32) (main_arg6 : FVec F S128 .f32) (main_arg7 : FVec F S128x128 .f32) (main_arg8 : FVec F S2x128 .f32) (main_arg9 : FVec F S2 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_v33

def fn {F : FTy → Type} [FloatOps F] (main_arg0 : FVec F S50000x64 .f32) (main_arg1 : IVec S2x800000 32) (main_arg2 : FVec F S128x64 .f32) (main_arg3 : FVec F S128 .f32) (main_arg4 : FVec F S128x64 .f32) (main_arg5 : FVec F S128x128 .f32) (main_arg6 : FVec F S128 .f32) (main_arg7 : FVec F S128x128 .f32) (main_arg8 : FVec F S2x128 .f32) (main_arg9 : FVec F S2 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_arg6 main_arg7 main_arg8 main_arg9 main_v13 main_v16
-- ==== Kernel.lean ====
abbrev S50000x64 : Shape := ⟨2, ![50000, 64]⟩
abbrev S2x800000 : Shape := ⟨2, ![2, 800000]⟩
abbrev S128x64 : Shape := ⟨2, ![128, 64]⟩
abbrev S128 : Shape := ⟨1, ![128]⟩
abbrev S128x128 : Shape := ⟨2, ![128, 128]⟩
abbrev S2x128 : Shape := ⟨2, ![2, 128]⟩
abbrev S2 : Shape := ⟨1, ![2]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x64 : Shape := ⟨2, ![800000, 64]⟩
abbrev S50000x128 : Shape := ⟨2, ![50000, 128]⟩
abbrev S5000x64 : Shape := ⟨2, ![5000, 64]⟩
abbrev S5000x1 : Shape := ⟨2, ![5000, 1]⟩
abbrev S5000x128 : Shape := ⟨2, ![5000, 128]⟩
abbrev S1x128 : Shape := ⟨2, ![1, 128]⟩
abbrev S800000x128 : Shape := ⟨2, ![800000, 128]⟩
abbrev S50000x2 : Shape := ⟨2, ![50000, 2]⟩
abbrev S5000x2 : Shape := ⟨2, ![5000, 2]⟩
abbrev S1x2 : Shape := ⟨2, ![1, 2]⟩

abbrev nBuf : Space → Nat
  | .hbm => 55
  | .vmem => 24
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S128x64, .f32⟩
  | .hbm, ⟨3, _⟩ => ⟨S128, .f32⟩
  | .hbm, ⟨4, _⟩ => ⟨S128x64, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S2x128, .f32⟩
  | .hbm, ⟨9, _⟩ => ⟨S2, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .f32⟩
  | .hbm, ⟨15, _⟩ => ⟨S800000, .f32⟩
  | .hbm, ⟨16, _⟩ => ⟨S_, .f32⟩
  | .hbm, ⟨17, _⟩ => ⟨S50000, .f32⟩
  | .hbm, ⟨18, _⟩ => ⟨S800000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S50000x1, .f32⟩
  | .hbm, ⟨27, _⟩ => ⟨S_, .i32⟩
  | .hbm, ⟨28, _⟩ => ⟨S800000, .i32⟩
  | .hbm, ⟨29, _⟩ => ⟨S800000, .i1⟩
  | .hbm, ⟨30, _⟩ => ⟨S_, .i32⟩
  | .hbm, ⟨31, _⟩ => ⟨S800000, .i32⟩
  | .hbm, ⟨32, _⟩ => ⟨S800000, .i32⟩
  | .hbm, ⟨33, _⟩ => ⟨S800000, .i32⟩
  | .hbm, ⟨34, _⟩ => ⟨S800000x1, .i32⟩
  | .hbm, ⟨35, _⟩ => ⟨S800000x64, .f32⟩
  | .hbm, ⟨36, _⟩ => ⟨S_, .f32⟩
  | .hbm, ⟨37, _⟩ => ⟨S50000x64, .f32⟩
  | .hbm, ⟨38, _⟩ => ⟨S800000x1, .i32⟩
  | .hbm, ⟨39, _⟩ => ⟨S50000x64, .f32⟩
  | .hbm, ⟨40, _⟩ => ⟨S50000x128, .f32⟩
  | .hbm, ⟨41, _⟩ => ⟨S_, .i32⟩
  | .hbm, ⟨42, _⟩ => ⟨S800000, .i32⟩
  | .hbm, ⟨43, _⟩ => ⟨S800000, .i1⟩
  | .hbm, ⟨44, _⟩ => ⟨S_, .i32⟩
  | .hbm, ⟨45, _⟩ => ⟨S800000, .i32⟩
  | .hbm, ⟨46, _⟩ => ⟨S800000, .i32⟩
  | .hbm, ⟨47, _⟩ => ⟨S800000, .i32⟩
  | .hbm, ⟨48, _⟩ => ⟨S800000x1, .i32⟩
  | .hbm, ⟨49, _⟩ => ⟨S800000x128, .f32⟩
  | .hbm, ⟨50, _⟩ => ⟨S_, .f32⟩
  | .hbm, ⟨51, _⟩ => ⟨S50000x128, .f32⟩
  | .hbm, ⟨52, _⟩ => ⟨S800000x1, .i32⟩
  | .hbm, ⟨53, _⟩ => ⟨S50000x128, .f32⟩
  | .hbm, ⟨54, _⟩ => ⟨S50000x2, .f32⟩
  | .local _ .vmem, ⟨0, _⟩ => ⟨S5000x64, .f32⟩
  | .local _ .vmem, ⟨1, _⟩ => ⟨S5000x64, .f32⟩
  | .local _ .vmem, ⟨2, _⟩ => ⟨S5000x1, .f32⟩
  | .local _ .vmem, ⟨3, _⟩ => ⟨S5000x1, .f32⟩
  | .local _ .vmem, ⟨4, _⟩ => ⟨S5000x64, .f32⟩
  | .local _ .vmem, ⟨5, _⟩ => ⟨S5000x64, .f32⟩
  | .local _ .vmem, ⟨6, _⟩ => ⟨S128x64, .f32⟩
  | .local _ .vmem, ⟨7, _⟩ => ⟨S128, .f32⟩
  | .local _ .vmem, ⟨8, _⟩ => ⟨S128x64, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x1, .f32⟩
  | .local _ .vmem, ⟨14, _⟩ => ⟨S5000x1, .f32⟩
  | .local _ .vmem, ⟨15, _⟩ => ⟨S5000x128, .f32⟩
  | .local _ .vmem, ⟨16, _⟩ => ⟨S5000x128, .f32⟩
  | .local _ .vmem, ⟨17, _⟩ => ⟨S128x128, .f32⟩
  | .local _ .vmem, ⟨18, _⟩ => ⟨S128, .f32⟩
  | .local _ .vmem, ⟨19, _⟩ => ⟨S128x128, .f32⟩
  | .local _ .vmem, ⟨20, _⟩ => ⟨S2x128, .f32⟩
  | .local _ .vmem, ⟨21, _⟩ => ⟨S2, .f32⟩
  | .local _ .vmem, ⟨22, _⟩ => ⟨S5000x2, .f32⟩
  | .local _ .vmem, ⟨23, _⟩ => ⟨S5000x2, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_c : Ref sig .tc := ⟨.hbm, 27, rfl⟩
abbrev main_v13 : Ref sig .tc := ⟨.hbm, 28, rfl⟩
abbrev main_v14 : Ref sig .tc := ⟨.hbm, 29, rfl⟩
abbrev main_c_3 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_7 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg8_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem8_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S2x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S2 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S5000x2 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  bcast_S_S50000x64 : S_.BroadcastsInDim S50000x64 (![] : Fin 0 → Fin S50000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S_S50000x128 : S_.BroadcastsInDim S50000x128 (![] : Fin 0 → Fin S50000x128.rank)
  shapeCasts_S5000x128_S5000x128 : S5000x128.ShapeCasts S5000x128
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  inb_S2x128_S2x128_0_0 : ∀ a, (![0, 0] : Fin 2 → Nat) a + S2x128.size a ≤ S2x128.size a
  h_S2x128 : 0 < S2x128.numel
  inb_S2_S2_0 : ∀ a, (![0] : Fin 1 → Nat) a + S2.size a ≤ S2.size a
  h_S2 : 0 < S2.numel
  shapeCasts_S2_S1x2 : S2.ShapeCasts S1x2
  broadcasts_S1x2_S5000x2 : S1x2.Broadcasts S5000x2
  inb_S5000x2_S5000x2_0_0 : ∀ a, (![0, 0] : Fin 2 → Nat) a + S5000x2.size a ≤ S5000x2.size a
  h_S5000x2 : 0 < S5000x2.numel
  scatter_S50000_S800000x1_S800000_n_0_0_1_wf : ScatterDims.WF S50000 S800000x1 S800000 [] [0] [0] 1
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S128x64_S5000x128_1_1_0_0_n_n_wf : DotDims.WF S5000x64 S128x64 S5000x128 [1] [1] [0] [0] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_1_0_0_n_n_wf : DotDims.WF S5000x128 S128x128 S5000x128 [1] [1] [0] [0] [] []
  dot_S5000x128_S2x128_S5000x2_1_1_0_0_n_n_wf : DotDims.WF S5000x128 S2x128 S5000x2 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x64.size a ≤ S128x64.size a
  hwx0_5 : ∀ i : grid0.Coords, EltTy.bits .f32 = 32 ∨ (Rect.block (s := S128x64) S128x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S2x128.size a ≤ S2x128.size a
  hwx1_6 : ∀ i : grid1.Coords, EltTy.bits .f32 = 32 ∨ (Rect.block (s := S2x128) S2x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S2.size a ≤ S2.size a
  hwx1_7 : ∀ i : grid1.Coords, EltTy.bits .f32 = 32 ∨ (Rect.block (s := S2) S2.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S5000x2.size a ≤ S50000x2.size a
  hwx1_8 : ∀ i : grid1.Coords, EltTy.bits .f32 = 32 ∨ (Rect.block (s := S50000x2) S5000x2.size (cc1_transform_8 i) (hinb1_8 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S128x64_S5000x128_1_1_0_0_n_n : DotDims S5000x64 S128x64 S5000x128 where
  lhsContracting := [1]
  rhsContracting := [1]
  lhsNonContracting := [0]
  rhsNonContracting := [0]
  lhsBatch := []
  rhsBatch := []
  wf := dot_S5000x64_S128x64_S5000x128_1_1_0_0_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_1_0_0_n_n : DotDims S5000x128 S128x128 S5000x128 where
  lhsContracting := [1]
  rhsContracting := [1]
  lhsNonContracting := [0]
  rhsNonContracting := [0]
  lhsBatch := []
  rhsBatch := []
  wf := dot_S5000x128_S128x128_S5000x128_1_1_0_0_n_n_wf
def dot_S5000x128_S2x128_S5000x2_1_1_0_0_n_n : DotDims S5000x128 S2x128 S5000x2 where
  lhsContracting := [1]
  rhsContracting := [1]
  lhsNonContracting := [0]
  rhsNonContracting := [0]
  lhsBatch := []
  rhsBatch := []
  wf := dot_S5000x128_S2x128_S5000x2_1_1_0_0_n_n_wf

abbrev win0_0 : Pipeline.Window sig grid0 :=
  Pipeline.Window.ofSpec (Memref.whole main_v22) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S5000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v23) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v33) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v23) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg8) S2x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg9) S2.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v34) S5000x2.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S128x64 : Shape := ⟨2, ![128, 64]⟩
abbrev S128 : Shape := ⟨1, ![128]⟩
abbrev S128x128 : Shape := ⟨2, ![128, 128]⟩
abbrev S2x128 : Shape := ⟨2, ![2, 128]⟩
abbrev S2 : Shape := ⟨1, ![2]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x64 : Shape := ⟨2, ![800000, 64]⟩
abbrev S50000x1 : Shape := ⟨2, ![50000, 1]⟩
abbrev S64x128 : Shape := ⟨2, ![64, 128]⟩
abbrev S50000x128 : Shape := ⟨2, ![50000, 128]⟩
abbrev S1x128 : Shape := ⟨2, ![1, 128]⟩
abbrev S800000x128 : Shape := ⟨2, ![800000, 128]⟩
abbrev S128x2 : Shape := ⟨2, ![128, 2]⟩
abbrev S50000x2 : Shape := ⟨2, ![50000, 2]⟩
abbrev S1x2 : Shape := ⟨2, ![1, 2]⟩

abbrev nBuf : Space → Nat
  | .hbm => 85
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S128x64, .f32⟩
  | .hbm, ⟨3, _⟩ => ⟨S128, .f32⟩
  | .hbm, ⟨4, _⟩ => ⟨S128x64, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S2x128, .f32⟩
  | .hbm, ⟨9, _⟩ => ⟨S2, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .f32⟩
  | .hbm, ⟨15, _⟩ => ⟨S800000, .f32⟩
  | .hbm, ⟨16, _⟩ => ⟨S_, .f32⟩
  | .hbm, ⟨17, _⟩ => ⟨S50000, .f32⟩
  | .hbm, ⟨18, _⟩ => ⟨S800000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .i32⟩
  | .hbm, ⟨27, _⟩ => ⟨S800000, .i32⟩
  | .hbm, ⟨28, _⟩ => ⟨S800000, .i1⟩
  | .hbm, ⟨29, _⟩ => ⟨S_, .i32⟩
  | .hbm, ⟨30, _⟩ => ⟨S800000, .i32⟩
  | .hbm, ⟨31, _⟩ => ⟨S800000, .i32⟩
  | .hbm, ⟨32, _⟩ => ⟨S800000, .i32⟩
  | .hbm, ⟨33, _⟩ => ⟨S800000x1, .i32⟩
  | .hbm, ⟨34, _⟩ => ⟨S800000x64, .f32⟩
  | .hbm, ⟨35, _⟩ => ⟨S_, .f32⟩
  | .hbm, ⟨36, _⟩ => ⟨S50000x64, .f32⟩
  | .hbm, ⟨37, _⟩ => ⟨S800000x1, .i32⟩
  | .hbm, ⟨38, _⟩ => ⟨S50000x64, .f32⟩
  | .hbm, ⟨39, _⟩ => ⟨S50000x1, .f32⟩
  | .hbm, ⟨40, _⟩ => ⟨S50000x64, .f32⟩
  | .hbm, ⟨41, _⟩ => ⟨S50000x64, .f32⟩
  | .hbm, ⟨42, _⟩ => ⟨S64x128, .f32⟩
  | .hbm, ⟨43, _⟩ => ⟨S50000x128, .f32⟩
  | .hbm, ⟨44, _⟩ => ⟨S1x128, .f32⟩
  | .hbm, ⟨45, _⟩ => ⟨S50000x128, .f32⟩
  | .hbm, ⟨46, _⟩ => ⟨S50000x128, .f32⟩
  | .hbm, ⟨47, _⟩ => ⟨S64x128, .f32⟩
  | .hbm, ⟨48, _⟩ => ⟨S50000x128, .f32⟩
  | .hbm, ⟨49, _⟩ => ⟨S50000x128, .f32⟩
  | .hbm, ⟨50, _⟩ => ⟨S_, .f32⟩
  | .hbm, ⟨51, _⟩ => ⟨S50000x128, .f32⟩
  | .hbm, ⟨52, _⟩ => ⟨S50000x128, .f32⟩
  | .hbm, ⟨53, _⟩ => ⟨S_, .i32⟩
  | .hbm, ⟨54, _⟩ => ⟨S800000, .i32⟩
  | .hbm, ⟨55, _⟩ => ⟨S800000, .i1⟩
  | .hbm, ⟨56, _⟩ => ⟨S_, .i32⟩
  | .hbm, ⟨57, _⟩ => ⟨S800000, .i32⟩
  | .hbm, ⟨58, _⟩ => ⟨S800000, .i32⟩
  | .hbm, ⟨59, _⟩ => ⟨S800000, .i32⟩
  | .hbm, ⟨60, _⟩ => ⟨S800000x1, .i32⟩
  | .hbm, ⟨61, _⟩ => ⟨S800000x128, .f32⟩
  | .hbm, ⟨62, _⟩ => ⟨S_, .f32⟩
  | .hbm, ⟨63, _⟩ => ⟨S50000x128, .f32⟩
  | .hbm, ⟨64, _⟩ => ⟨S800000x1, .i32⟩
  | .hbm, ⟨65, _⟩ => ⟨S50000x128, .f32⟩
  | .hbm, ⟨66, _⟩ => ⟨S50000x1, .f32⟩
  | .hbm, ⟨67, _⟩ => ⟨S50000x128, .f32⟩
  | .hbm, ⟨68, _⟩ => ⟨S50000x128, .f32⟩
  | .hbm, ⟨69, _⟩ => ⟨S128x128, .f32⟩
  | .hbm, ⟨70, _⟩ => ⟨S50000x128, .f32⟩
  | .hbm, ⟨71, _⟩ => ⟨S1x128, .f32⟩
  | .hbm, ⟨72, _⟩ => ⟨S50000x128, .f32⟩
  | .hbm, ⟨73, _⟩ => ⟨S50000x128, .f32⟩
  | .hbm, ⟨74, _⟩ => ⟨S128x128, .f32⟩
  | .hbm, ⟨75, _⟩ => ⟨S50000x128, .f32⟩
  | .hbm, ⟨76, _⟩ => ⟨S50000x128, .f32⟩
  | .hbm, ⟨77, _⟩ => ⟨S_, .f32⟩
  | .hbm, ⟨78, _⟩ => ⟨S50000x128, .f32⟩
  | .hbm, ⟨79, _⟩ => ⟨S50000x128, .f32⟩
  | .hbm, ⟨80, _⟩ => ⟨S128x2, .f32⟩
  | .hbm, ⟨81, _⟩ => ⟨S50000x2, .f32⟩
  | .hbm, ⟨82, _⟩ => ⟨S1x2, .f32⟩
  | .hbm, ⟨83, _⟩ => ⟨S50000x2, .f32⟩
  | .hbm, ⟨84, _⟩ => ⟨S50000x2, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_3 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_call0_cst : Ref sig .tc := ⟨.hbm, 50, rfl⟩
abbrev main_call0_v0 : Ref sig .tc := ⟨.hbm, 51, rfl⟩
abbrev main_v33 : Ref sig .tc := ⟨.hbm, 52, rfl⟩
abbrev main_c_5 : Ref sig .tc := ⟨.hbm, 53, rfl⟩
abbrev main_v34 : Ref sig .tc := ⟨.hbm, 54, rfl⟩
abbrev main_v35 : Ref sig .tc := ⟨.hbm, 55, rfl⟩
abbrev main_c_6 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_7 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_call1_cst : Ref sig .tc := ⟨.hbm, 77, rfl⟩
abbrev main_call1_v0 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  transposes_S128x64_S64x128_1_0 : S128x64.Transposes [1, 0] S64x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  transposes_S128x128_S128x128_1_0 : S128x128.Transposes [1, 0] S128x128
  transposes_S2x128_S128x2_1_0 : S2x128.Transposes [1, 0] S128x2
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  scatter_S50000_S800000x1_S800000_n_0_0_1_wf : ScatterDims.WF S50000 S800000x1 S800000 [] [0] [0] 1
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x128_S50000x128_1_0_0_1_n_n_wf : DotDims.WF S50000x64 S64x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  dot_S50000x128_S128x2_S50000x2_1_0_0_1_n_n_wf : DotDims.WF S50000x128 S128x2 S50000x2 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x2_S50000x2_1_0_0_1_n_n : DotDims S50000x128 S128x2 S50000x2 where
  lhsContracting := [1]
  rhsContracting := [0]
  lhsNonContracting := [0]
  rhsNonContracting := [1]
  lhsBatch := []
  rhsBatch := []
  wf := dot_S50000x128_S128x2_S50000x2_1_0_0_1_n_n_wf

class Facts : Prop extends Facts₀ where

variable [Facts]
-- ==== Proof.KernelRun.lean ====
/-
  The idealized kernel program's run with its result named.

  The program is four stretches: host operations, the first kernel over its ten tiles, host operations, the second kernel.
  Every weakly fair execution terminates without a fault; at the end each buffer of the TensorCore holds what the four
  stretches, folded in order from the launch memory, leave in it. Read at the result buffer this is the run's value;
  read at an argument's buffer it is the argument as launched.
-/
import proofs.«157365_j40089224741075_2_alg».proof.Proof.Gen.KernelIdeal.Frame

set_option maxRecDepth 16384

noncomputable section

namespace Cert.Sage.KernelRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the fold's
    contents there and every argument as launched. -/
theorem run_main : θ_run defs (onTc (τ := τ) (main (F := F))) ⟨m, fun _ => 0, ρ⟩ (fun r => ∀ c : Dev nD,
      r.2.mem ((c.tc : Thread nD τ).loc main_v34) = W4 m ρ c (Proc.devRef .tc main_v34)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v34 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c)⟩)

end Cert.Sage.KernelRun

end
-- ==== Proof.SageLayer.lean ====
/-
  One mean-aggregation layer and the linear head, entry by entry, over the extended reals.

  A layer takes the summed neighbour features `A` (one row per node), the reciprocal degree `d` of each node, the
  nodes' own features `X`, two weight matrices stored one row per output feature and a bias. Entry `(i, o)` of its
  result is

      max ( Σ_c (A(i,c) · d(i)) · Wl(o,c)  +  Σ_c X(i,c) · Wr(o,c)  +  b(o) ,  0 ).

  The head is a plain linear map: entry `(i, o)` is  Σ_c H(i,c) · W(o,c) + b(o).
  A second way of adding the three terms of a layer — the bias before the second product — gives the same entry,
  because addition of extended reals is commutative and associative (no entry has to be finite).
-/
import Idealize.ShloMosaic.PureOps.Ideal
import Idealize.ShloMosaic.Lib.ValueIdx

noncomputable section

namespace Cert.Sage

open Idealize.ShloMosaic Idealize.ShloMosaic.ValueIdx

/-- The word of the float zero, read over the extended reals: the floor of the rectifier. It is never evaluated. -/
abbrev floor0 : EReal := Ideal.ofBits .f32 0x00000000#32

/-- Entry `(i, o)` of a layer: the scaled neighbour sum through `Wl`, the node's own features through `Wr`, the
    bias, rectified. -/
def layerAt {N K H : Nat} (A : (⟨2, ![N, K]⟩ : Shape).Idx → EReal) (d : Fin N → EReal)
    (X : (⟨2, ![N, K]⟩ : Shape).Idx → EReal) (Wl : (⟨2, ![H, K]⟩ : Shape).Idx → EReal)
    (b : (⟨1, ![H]⟩ : Shape).Idx → EReal) (Wr : (⟨2, ![H, K]⟩ : Shape).Idx → EReal) (i : Fin N) (o : Fin H) : EReal :=
  max ((∑ c : Fin K, (A (ix2 i c) * d i) * Wl (ix2 o c)) + (∑ c : Fin K, X (ix2 i c) * Wr (ix2 o c)) + b (ix1 o)) floor0

/-- The layer as an array `[N, H]`. -/
def layer {N K H : Nat} (A : (⟨2, ![N, K]⟩ : Shape).Idx → EReal) (d : Fin N → EReal)
    (X : (⟨2, ![N, K]⟩ : Shape).Idx → EReal) (Wl : (⟨2, ![H, K]⟩ : Shape).Idx → EReal)
    (b : (⟨1, ![H]⟩ : Shape).Idx → EReal) (Wr : (⟨2, ![H, K]⟩ : Shape).Idx → EReal) :
    (⟨2, ![N, H]⟩ : Shape).Idx → EReal :=
  fun j => layerAt A d X Wl b Wr (j 0) (j 1)

theorem layer_ix2 {N K H : Nat} (A : (⟨2, ![N, K]⟩ : Shape).Idx → EReal) (d : Fin N → EReal)
    (X : (⟨2, ![N, K]⟩ : Shape).Idx → EReal) (Wl : (⟨2, ![H, K]⟩ : Shape).Idx → EReal)
    (b : (⟨1, ![H]⟩ : Shape).Idx → EReal) (Wr : (⟨2, ![H, K]⟩ : Shape).Idx → EReal) (i : Fin N) (o : Fin H) :
    layer A d X Wl b Wr (ix2 i o) = layerAt A d X Wl b Wr i o := rfl

/-- The same entry with the bias added before the second product: the order in which three extended reals are added
    does not matter. -/
theorem layerAt_bias_first {N K H : Nat} (A : (⟨2, ![N, K]⟩ : Shape).Idx → EReal) (d : Fin N → EReal)
    (X : (⟨2, ![N, K]⟩ : Shape).Idx → EReal) (Wl : (⟨2, ![H, K]⟩ : Shape).Idx → EReal)
    (b : (⟨1, ![H]⟩ : Shape).Idx → EReal) (Wr : (⟨2, ![H, K]⟩ : Shape).Idx → EReal) (i : Fin N) (o : Fin H) :
    max ((∑ c : Fin K, (A (ix2 i c) * d i) * Wl (ix2 o c)) + b (ix1 o) + (∑ c : Fin K, X (ix2 i c) * Wr (ix2 o c))) floor0
      = layerAt A d X Wl b Wr i o := by
  unfold layerAt
  rw [add_right_comm]

/-- Entry `(i, o)` of the head. -/
def headAt {N H O : Nat} (Hh : (⟨2, ![N, H]⟩ : Shape).Idx → EReal) (W : (⟨2, ![O, H]⟩ : Shape).Idx → EReal)
    (b : (⟨1, ![O]⟩ : Shape).Idx → EReal) (i : Fin N) (o : Fin O) : EReal :=
  (∑ c : Fin H, Hh (ix2 i c) * W (ix2 o c)) + b (ix1 o)

/-- The head as an array `[N, O]`. -/
def head {N H O : Nat} (Hh : (⟨2, ![N, H]⟩ : Shape).Idx → EReal) (W : (⟨2, ![O, H]⟩ : Shape).Idx → EReal)
    (b : (⟨1, ![O]⟩ : Shape).Idx → EReal) : (⟨2, ![N, O]⟩ : Shape).Idx → EReal :=
  fun j => headAt Hh W b (j 0) (j 1)

theorem head_ix2 {N H O : Nat} (Hh : (⟨2, ![N, H]⟩ : Shape).Idx → EReal) (W : (⟨2, ![O, H]⟩ : Shape).Idx → EReal)
    (b : (⟨1, ![O]⟩ : Shape).Idx → EReal) (i : Fin N) (o : Fin O) : head Hh W b (ix2 i o) = headAt Hh W b i o := rfl

end Cert.Sage

end
-- ==== Proof.LibColumnForms.lean ====
/-
  A column vector read at an index.

  Summing a matrix along its rows with the summed axis kept gives a column: the sums, an `[a]` vector, are laid out as
  `[a, 1]`, and the column is then copied along a new second axis to `[a, b]`. Entry `(i, j)` of the result is
  entry `i` of the vector, whatever `j`. The two lemmas below say this one layout step at a time, every index
  written by its coordinates.
-/
import Idealize.ShloMosaic.Lib.Pipeline.Value
import Idealize.ShloMosaic.Lib.ValueIdx

namespace Cert.ColumnForms

open Idealize.ShloMosaic Idealize.ShloMosaic.ValueIdx

variable {α : Type}

/-- A vector `[a]` laid out as a column `[a, 1]` reads, at `(i, u)`, the vector at `i`: the row-major position
    `i · 1 + u` of `(i, u)` is `i`, the unit coordinate `u` being `0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` copied along its unit axis to `[a, b]` reads, at `(i, j)`, the column at `(i, 0)`: the first
    coordinate is kept (also when `a = 1`, where it is `0` anyway), the second is the unit axis's only one. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.ColumnForms
-- ==== Proof.LibRowsTimesRows.lean ====
/-
  A product of an `R × n` matrix with the rows of a `k × n` matrix, read at an index, over the extended reals.

  When both operands are contracted on their SECOND axis (no batch axis) — the product `A · Bᵀ` taken without
  materialising the transpose — a product accumulated into the zero matrix is, at row `q` and column `o`, the sum
  over `c : Fin n` of `A (q, c) * B (o, c)`: the zero accumulator contributes `0 + _`, and the contraction index, a
  one-axis multi-index, is re-indexed by its one coordinate. The statement quantifies over the well-formedness proof
  only, so it applies to any record with these six lists. Nothing here needs an entry to be finite.
-/
import Idealize.ShloMosaic.PureOps.Ideal
import Idealize.ShloMosaic.PureOps.Ideal.Laws
import Idealize.ShloMosaic.Lib.ValueIdx

noncomputable section

namespace Cert.RowsTimesRows

open Idealize.ShloMosaic Idealize.ShloMosaic.ValueIdx

/-- The dimension numbers of `A · Bᵀ` for `A : R × n` and `B : k × n`, for any proof that they are well formed. -/
abbrev rowsDims (R n k : Nat)
    (wf : DotDims.WF (⟨2, ![R, n]⟩ : Shape) ⟨2, ![k, n]⟩ ⟨2, ![R, k]⟩ [1] [1] [0] [0] [] []) :
    DotDims (⟨2, ![R, n]⟩ : Shape) ⟨2, ![k, n]⟩ ⟨2, ![R, k]⟩ :=
  { lhsContracting := [1], rhsContracting := [1], lhsNonContracting := [0], rhsNonContracting := [0],
    lhsBatch := [], rhsBatch := [], wf := wf }

theorem rowsDims_contr_rank {R n k : Nat} (wf) : (rowsDims R n k wf).contr.rank = 1 := rfl

theorem rowsDims_contr_size {R n k : Nat} (wf) :
    (rowsDims R n k wf).contr.size ⟨0, by rw [rowsDims_contr_rank]; exact Nat.one_pos⟩ = n := rfl

/-- The contraction index of such a product is one coordinate in `Fin n`. -/
abbrev rowsContr {R n k : Nat} (wf) : (rowsDims R n k wf).contr.Idx ≃ Fin n :=
  contrEquiv1 (rowsDims R n k wf) n (rowsDims_contr_rank wf) (rowsDims_contr_size wf)

/-- The left operand's index at output `(q, o)` and contraction coordinate `c` is `(q, c)`. -/
theorem rowsDims_lhsIdx {R n k : Nat} (wf) (q : Fin R) (o : Fin k) (c : Fin n) :
    (rowsDims R n k wf).lhsIdx (ix2 q o) ((rowsContr wf).symm c) = ix2 q c := by
  funext a
  apply Fin.ext
  match a with
  | ⟨0, h0⟩ =>
    unfold DotDims.lhsIdx
    rw [dif_neg (show ¬(⟨0, h0⟩ : Fin (⟨2, ![R, n]⟩ : Shape).rank) ∈ (rowsDims R n k wf).lhsBatch from List.not_mem_nil),
      dif_pos (show (⟨0, h0⟩ : Fin (⟨2, ![R, n]⟩ : Shape).rank) ∈ (rowsDims R n k wf).lhsNonContracting from
        List.mem_singleton.mpr rfl)]
    rfl
  | ⟨1, h1⟩ =>
    exact ((rowsDims R n k wf).lhsIdx_val_of_single (cl := ⟨1, h1⟩) rfl _ _).trans
      (contrEquiv1_symm_val (rowsDims R n k wf) n (rowsDims_contr_rank wf) (rowsDims_contr_size wf) c)

/-- The right operand's index there is `(o, c)`: its first axis is the output's second. -/
theorem rowsDims_rhsIdx {R n k : Nat} (wf) (q : Fin R) (o : Fin k) (c : Fin n) :
    (rowsDims R n k wf).rhsIdx (ix2 q o) ((rowsContr wf).symm c) = ix2 o c := by
  funext a
  apply Fin.ext
  match a with
  | ⟨0, h0⟩ =>
    unfold DotDims.rhsIdx
    rw [dif_neg (show ¬(⟨0, h0⟩ : Fin (⟨2, ![k, n]⟩ : Shape).rank) ∈ (rowsDims R n k wf).rhsBatch from List.not_mem_nil),
      dif_pos (show (⟨0, h0⟩ : Fin (⟨2, ![k, n]⟩ : Shape).rank) ∈ (rowsDims R n k wf).rhsNonContracting from
        List.mem_singleton.mpr rfl)]
    rfl
  | ⟨1, h1⟩ =>
    exact ((rowsDims R n k wf).rhsIdx_val_of_single (cr := ⟨1, h1⟩) rfl _ _).trans
      (contrEquiv1_symm_val (rowsDims R n k wf) n (rowsDims_contr_rank wf) (rowsDims_contr_size wf) c)

/-- A product `A · Bᵀ` accumulated into the zero matrix, at `(q, o)`: the sum over the shared second axis. -/
theorem rowsMatmul_zero_apply {R n k : Nat} {φ₁ φ₂ : FTy} (wf) (prec : Option ContractPrecision)
    (A : FVec Ideal (⟨2, ![R, n]⟩ : Shape) φ₁) (B : FVec Ideal (⟨2, ![k, n]⟩ : Shape) φ₂) (q : Fin R) (o : Fin k) :
    FloatOps.matmul (rowsDims R n k wf) prec A B (constant (F := Ideal) (⟨2, ![R, k]⟩ : Shape) .f32 0x00000000#32) (ix2 q o)
      = ∑ c : Fin n, A (ix2 q c) * B (ix2 o c) := by
  rw [Ideal.matmul_constant_zero_apply, ← Equiv.sum_comp (rowsContr wf).symm]
  refine Finset.sum_congr rfl fun c _ => ?_
  rw [rowsDims_lhsIdx, rowsDims_rhsIdx]

end Cert.RowsTimesRows

end
-- ==== Proof.LibMergeForms.lean ====
/-
  Reshapes that merge or split the two leading axes, and a bias row copied down the rows, read at an index by
  coordinates.

  A reshape keeps the row-major position of every entry. Merging the leading axes `a, b` of an array into one axis
  of extent `a · b` sends the entry `(r, k, …)` to row `r · b + k`; splitting undoes it. A vector `[k]` laid out as
  one row `[1, k]` and copied to every row of `[R, k]` reads, at `(q, o)`, the vector at `o`.
-/
import Idealize.ShloMosaic.Lib.Pipeline.Value
import Idealize.ShloMosaic.Lib.ValueIdx
import Idealize.ShloMosaic.Lib.ValueLayout

noncomputable section

namespace Cert.PointConv

open Idealize.ShloMosaic Idealize.ShloMosaic.ValueIdx

variable {α : Type}

/-- `[a, b, c]` reshaped to `[m, c]` (`m = a · b`): row `r · b + k` at column `o` is the entry `(r, k, o)`. -/
theorem shapeCast_abc_mc_apply {a b c m : Nat} (x : (⟨3, ![a, b, c]⟩ : Shape).Idx → α)
    (h : (⟨3, ![a, b, c]⟩ : Shape).ShapeCasts ⟨2, ![m, c]⟩) (r : Fin a) (k : Fin b) (o : Fin c) (q : Fin m)
    (hq : q.val = r.val * b + k.val) : shapeCast ⟨2, ![m, c]⟩ x h (ix2 q o) = x (ix3 r k o) :=
  shapeCast_apply x h _ _ (by
    rw [Shape.rowMajor_val_three, Shape.rowMajor_val_two]
    show (r.val * b + k.val) * c + o.val = q.val * c + o.val
    rw [hq])

/-- `[m, c]` reshaped to `[a, b, c]` (`m = a · b`): the entry `(r, k, o)` is row `r · b + k` at column `o`. -/
theorem shapeCast_mc_abc_apply {a b c m : Nat} (x : (⟨2, ![m, c]⟩ : Shape).Idx → α)
    (h : (⟨2, ![m, c]⟩ : Shape).ShapeCasts ⟨3, ![a, b, c]⟩) (r : Fin a) (k : Fin b) (o : Fin c) (q : Fin m)
    (hq : q.val = r.val * b + k.val) : shapeCast ⟨3, ![a, b, c]⟩ x h (ix3 r k o) = x (ix2 q o) :=
  shapeCast_apply x h _ _ (by
    rw [Shape.rowMajor_val_three, Shape.rowMajor_val_two]
    show q.val * c + o.val = (r.val * b + k.val) * c + o.val
    rw [hq])

/-- `[a, b, c, d]` reshaped to `[m, c, d]` (`m = a · b`): the entry `(r · b + k, i, j)` is the entry `(r, k, i, j)`. -/
theorem shapeCast_abcd_mcd_apply {a b c d m : Nat} (x : (⟨4, ![a, b, c, d]⟩ : Shape).Idx → α)
    (h : (⟨4, ![a, b, c, d]⟩ : Shape).ShapeCasts ⟨3, ![m, c, d]⟩) (r : Fin a) (k : Fin b) (i : Fin c) (j : Fin d) (q : Fin m)
    (hq : q.val = r.val * b + k.val) : shapeCast ⟨3, ![m, c, d]⟩ x h (ix3 q i j) = x (ix4 r k i j) :=
  shapeCast_apply x h _ _ (by
    rw [Shape.rowMajor_val_four, Shape.rowMajor_val_three]
    show ((r.val * b + k.val) * c + i.val) * d + j.val = (q.val * c + i.val) * d + j.val
    rw [hq])

/-- A vector `[k]` laid out as the row `[1, k]` and copied to every row of `[R, k]`: at `(q, o)` it is the vector at `o`. -/
theorem rowBias_apply {R k : Nat} (b : (⟨1, ![k]⟩ : Shape).Idx → α) (h1 : (⟨1, ![k]⟩ : Shape).ShapeCasts ⟨2, ![1, k]⟩)
    (h2 : (⟨2, ![1, k]⟩ : Shape).Broadcasts ⟨2, ![R, k]⟩) (q : Fin R) (o : Fin k) :
    broadcastTo ⟨2, ![R, k]⟩ (shapeCast ⟨2, ![1, k]⟩ b h1) h2 (ix2 q o) = b (ix1 o) :=
  (broadcastTo_1b_ab_apply _ h2 q o).trans (shapeCast_a_1a_apply b h1 0 o)

end Cert.PointConv

end
-- ==== Proof.BlockLayer.lean ====
/-
  What one grid step of each kernel computes, entry by entry.

  The first kernel's body takes a tile of 5000 rows of the summed neighbour features, of the reciprocal degrees (a
  column) and of the nodes' own features, and the whole weight matrices and bias, and stores one value: the layer of
  `SageLayer` on that tile. Roundings to the narrow float format are the identity over the extended reals; each
  matrix product contracts the second axes of both operands, so entry `(q, o)` is a sum over `c` of
  `left (q, c) · right (o, c)`; the reciprocal-degree column is copied along the feature axis, the bias row down the
  rows. The second kernel's body is the same layer followed by the head on the tile.
-/
import proofs.«157365_j40089224741075_2_alg».proof.Proof.Gen.KernelIdeal.Skeleton
import proofs.«157365_j40089224741075_2_alg».proof.Proof.SageLayer
import proofs.«157365_j40089224741075_2_alg».proof.Proof.LibColumnForms
import proofs.«157365_j40089224741075_2_alg».proof.Proof.LibRowsTimesRows
import proofs.«157365_j40089224741075_2_alg».proof.Proof.LibMergeForms
import Idealize.ShloMosaic.Lib.Pipeline.Value
import Idealize.ShloMosaic.Lib.ValueIdx

noncomputable section

namespace Cert.Sage.Block

open Idealize.ShloMosaic Idealize.ShloMosaic.ValueIdx Cert.KernelIdeal Cert.KernelIdeal.Gen
open Cert.KernelIdeal.Facts₀

variable [Cert.KernelIdeal.Facts]

/-- The reciprocal degree of row `q` of a tile, from the tile's column. -/
abbrev colOf (v2 : Vec Ideal S5000x1 .f32) : Fin 5000 → EReal := fun q => v2 (ix2 q (0 : Fin 1))

/-- The neighbour sums scaled row by row by the reciprocal degrees, at `(q, c)`. -/
theorem scaled_apply {R K : Nat} (v0 : FVec Ideal (⟨2, ![R, K]⟩ : Shape) .f32) (v2 : FVec Ideal (⟨2, ![R, 1]⟩ : Shape) .f32)
    (h1 : (⟨2, ![R, K]⟩ : Shape).ShapeCasts ⟨2, ![R, K]⟩) (h2 : (⟨2, ![R, 1]⟩ : Shape).ShapeCasts ⟨2, ![R, 1]⟩)
    (hb : (⟨2, ![R, 1]⟩ : Shape).Broadcasts ⟨2, ![R, K]⟩) (q : Fin R) (c : Fin K) :
    (mulf (shapeCast (⟨2, ![R, K]⟩ : Shape) v0 h1)
      (broadcastTo (⟨2, ![R, K]⟩ : Shape) (shapeCast (⟨2, ![R, 1]⟩ : Shape) v2 h2) hb) : FVec Ideal (⟨2, ![R, K]⟩ : Shape) .f32) (ix2 q c)
      = v0 (ix2 q c) * v2 (ix2 q (0 : Fin 1)) := by
  rw [mulf_apply, shapeCast_self, shapeCast_self, Cert.ColumnForms.broadcastTo_a1_ab_apply]

/-- The first kernel's stored value at `(q, o)` is the layer on the tile. -/
theorem pay0_apply (v0 : Vec Ideal S5000x64 .f32) (v2 : Vec Ideal S5000x1 .f32) (v7 : Vec Ideal S5000x64 .f32)
    (v9 : Vec Ideal S128x64 .f32) (v11 : Vec Ideal S128x64 .f32) (v15 : Vec Ideal S128 .f32) (q : Fin 5000) (o : Fin 128) :
    k0_pay1 (F := Ideal) v0 v2 v7 v9 v11 v15 (ix2 q o) = layerAt v0 (colOf v2) v7 v9 v15 v11 q o := by
  unfold k0_pay1 layerAt
  have e : dot_S5000x64_S128x64_S5000x128_1_1_0_0_n_n
      = Cert.RowsTimesRows.rowsDims 5000 64 128 Facts₀.dot_S5000x64_S128x64_S5000x128_1_1_0_0_n_n_wf := rfl
  simp only [matmul]
  rw [maximumf_apply, addf_apply, addf_apply, broadcast_apply, e, Cert.RowsTimesRows.rowsMatmul_zero_apply,
    Cert.RowsTimesRows.rowsMatmul_zero_apply, Cert.PointConv.rowBias_apply]
  simp only [truncf_apply, scaled_apply]
  rfl

/-- The second kernel's stored value at `(q, o)` is the head on the layer of the tile. -/
theorem pay1_apply (v0 : Vec Ideal S5000x128 .f32) (v2 : Vec Ideal S5000x1 .f32) (v7 : Vec Ideal S5000x128 .f32)
    (v10 : Vec Ideal S128x128 .f32) (v12 : Vec Ideal S128x128 .f32) (v16 : Vec Ideal S128 .f32)
    (v24 : Vec Ideal S2x128 .f32) (v27 : Vec Ideal S2 .f32) (q : Fin 5000) (o : Fin 2) :
    k1_pay1 (F := Ideal) v0 v2 v7 v10 v12 v16 v24 v27 (ix2 q o)
      = headAt (layer v0 (colOf v2) v7 v10 v16 v12) v24 v27 q o := by
  unfold k1_pay1 headAt
  have e1 : dot_S5000x128_S128x128_S5000x128_1_1_0_0_n_n
      = Cert.RowsTimesRows.rowsDims 5000 128 128 Facts₀.dot_S5000x128_S128x128_S5000x128_1_1_0_0_n_n_wf := rfl
  have e2 : dot_S5000x128_S2x128_S5000x2_1_1_0_0_n_n
      = Cert.RowsTimesRows.rowsDims 5000 128 2 Facts₀.dot_S5000x128_S2x128_S5000x2_1_1_0_0_n_n_wf := rfl
  simp only [matmul]
  rw [addf_apply, e2, Cert.RowsTimesRows.rowsMatmul_zero_apply, Cert.PointConv.rowBias_apply]
  refine congrArg (· + v27 (ix1 o)) (Finset.sum_congr rfl fun c _ => ?_)
  rw [truncf_apply, truncf_apply, layer_ix2]
  refine congrArg (· * v24 (ix2 o c)) ?_
  unfold layerAt
  rw [maximumf_apply, addf_apply, addf_apply, broadcast_apply, e1, Cert.RowsTimesRows.rowsMatmul_zero_apply,
    Cert.RowsTimesRows.rowsMatmul_zero_apply, Cert.PointConv.rowBias_apply]
  simp only [truncf_apply, scaled_apply]
  simp only [shapeCast_self]
  rfl

end Cert.Sage.Block

end
-- ==== Proof.RegionArrays.lean ====
/-
  What each kernel leaves in its result array, for any contents of the arrays when the kernel is entered.

  Both kernels run over ten tiles of 5000 rows. At tile `t` the row-tiled operands (the neighbour sums, the
  reciprocal-degree column, the nodes' features) are read at rows `5000·t … 5000·t + 4999`, the weights and biases
  whole, and the tile written back is rows `5000·t …` of the result. Row `i` of the result therefore depends on row `i`
  of the row-tiled operands only, and the ten tiles cover all 50000 rows: the result array is the layer (for the second
  kernel: the head on the layer) of the WHOLE operand arrays.
-/
import proofs.«157365_j40089224741075_2_alg».proof.Proof.Gen.KernelIdeal.Frame
import proofs.«157365_j40089224741075_2_alg».proof.Proof.BlockLayer
import Idealize.ShloMosaic.Lib.Pipeline.Value
import Idealize.ShloMosaic.Lib.ValueIdx

set_option maxRecDepth 16384

noncomputable section

namespace Cert.Sage.Region

open Idealize.ShloMosaic Idealize.ShloMosaic.TcCoe Idealize.ShloMosaic.ValueIdx Idealize.SL.Sem
open Idealize.ShloMosaic.Pipeline (Dat)
open Cert.KernelIdeal Cert.KernelIdeal.Gen Cert.Sage.Block

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The reciprocal degree of node `i`, from the column array. -/
abbrev colAll (D : S50000x1.Idx → EReal) : Fin 50000 → EReal := fun i => D (ix2 i (0 : Fin 1))

/-! ## The first kernel -/

/-- The first kernel's result array as a function of the arrays it is entered with. -/
abbrev G0 (c : Dev nD) : S50000x128.Idx → EReal :=
  layer (V c main_v22 : S50000x64.Idx → EReal) (colAll (V c main_v12 : S50000x1.Idx → EReal))
    (V c main_arg0 : S50000x64.Idx → EReal) (V c main_arg2 : S128x64.Idx → EReal) (V c main_arg3 : S128.Idx → EReal)
    (V c main_arg4 : S128x64.Idx → EReal)

/-- Which tile each window reads or writes at grid point `t`: the row-tiled ones tile `t`, the others their only one. -/
theorem tiles0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- One tile of the layer: if the tile operands are rows `5000·tv …` of the whole operands and the weights are read
    whole, the stored tile at `y` is the whole layer at the row `5000·tv + y₀`. -/
theorem tile0_eq (A : S50000x64.Idx → EReal) (D : S50000x1.Idx → EReal) (X : S50000x64.Idx → EReal)
    (Wl : S128x64.Idx → EReal) (b : S128.Idx → EReal) (Wr : S128x64.Idx → EReal)
    (x0 : Vec Ideal S5000x64 .f32) (x1 : Vec Ideal S5000x1 .f32) (x2 : Vec Ideal S5000x64 .f32)
    (x3 : Vec Ideal S128x64 .f32) (x4 : Vec Ideal S128 .f32) (x5 : Vec Ideal S128x64 .f32) (tv : Nat)
    (h0 : ∀ (q : Fin 5000) (cc : Fin 64) (r : Fin 50000), r.val = tv * 5000 + q.val → x0 (ix2 q cc) = A (ix2 r cc))
    (h1 : ∀ (q : Fin 5000) (r : Fin 50000), r.val = tv * 5000 + q.val → x1 (ix2 q (0 : Fin 1)) = D (ix2 r (0 : Fin 1)))
    (h2 : ∀ (q : Fin 5000) (cc : Fin 64) (r : Fin 50000), r.val = tv * 5000 + q.val → x2 (ix2 q cc) = X (ix2 r cc))
    (h3 : x3 = Wl) (h4 : x4 = b) (h5 : x5 = Wr)
    (y : S5000x128.Idx) (i : S50000x128.Idx) (hi0 : (i 0).val = tv * 5000 + (y 0).val) (hi1 : (i 1).val = (y 1).val) :
    k0_pay1 (F := Ideal) x0 x1 x2 x3 x5 x4 y = layer A (colAll D) X Wl b Wr i := by
  obtain ⟨q, o, rfl⟩ : ∃ (q : Fin 5000) (o : Fin 128), y = ix2 q o := ⟨y 0, y 1, eq_ix2 y⟩
  obtain ⟨r, o', rfl⟩ : ∃ (r : Fin 50000) (o' : Fin 128), i = ix2 r o' := ⟨i 0, i 1, eq_ix2 i⟩
  have hr : r.val = tv * 5000 + q.val := hi0
  obtain rfl : o' = o := Fin.ext hi1
  rw [pay0_apply, layer_ix2]
  unfold layerAt colOf colAll
  subst h3 h4 h5
  simp only [h0 _ _ r hr, h1 _ r hr, h2 _ _ r hr]

/-- Tile `t` of the neighbour sums is rows `5000·t …` of the array. -/
theorem read0_0 (c : Dev nD) (t : Fin cfg0.N) (q : Fin 5000) (cc : Fin 64) (r : Fin 50000) (hr : r.val = t.val * 5000 + q.val) :
    (iblk0 V c 0 t : Vec Ideal S5000x64 .f32) (ix2 q cc) = (V c main_v22 : S50000x64.Idx → EReal) (ix2 r cc) := by
  obtain ⟨e0, e1, -⟩ := tiles0 t
  unfold iblk0
  show V c main_v22 (((cfg0.win 0).blk t).view.emb (ix2 q cc)) = V c main_v22 (ix2 r cc)
  refine congrArg _ (funext fun a => Fin.ext ?_)
  match a with
  | ⟨0, _⟩ => show win0_0.index t (0 : Fin 2) * 5000 + 1 * q.val = r.val; rw [e0, hr]; omega
  | ⟨1, _⟩ => show win0_0.index t (1 : Fin 2) * 64 + 1 * cc.val = cc.val; rw [e1]; omega

/-- Tile `t` of the reciprocal-degree column. -/
theorem read0_1 (c : Dev nD) (t : Fin cfg0.N) (q : Fin 5000) (r : Fin 50000) (hr : r.val = t.val * 5000 + q.val) :
    (iblk0 V c 1 t : Vec Ideal S5000x1 .f32) (ix2 q (0 : Fin 1)) = (V c main_v12 : S50000x1.Idx → EReal) (ix2 r (0 : Fin 1)) := by
  obtain ⟨-, -, e0, e1, -⟩ := tiles0 t
  unfold iblk0
  show V c main_v12 (((cfg0.win 1).blk t).view.emb (ix2 q (0 : Fin 1))) = V c main_v12 (ix2 r (0 : Fin 1))
  refine congrArg _ (funext fun a => Fin.ext ?_)
  match a with
  | ⟨0, _⟩ => show win0_1.index t (0 : Fin 2) * 5000 + 1 * q.val = r.val; rw [e0, hr]; omega
  | ⟨1, _⟩ => show win0_1.index t (1 : Fin 2) * 1 + 1 * 0 = 0; rw [e1]

/-- Tile `t` of the nodes' features. -/
theorem read0_2 (c : Dev nD) (t : Fin cfg0.N) (q : Fin 5000) (cc : Fin 64) (r : Fin 50000) (hr : r.val = t.val * 5000 + q.val) :
    (iblk0 V c 2 t : Vec Ideal S5000x64 .f32) (ix2 q cc) = (V c main_arg0 : S50000x64.Idx → EReal) (ix2 r cc) := by
  obtain ⟨-, -, -, -, e0, e1, -⟩ := tiles0 t
  unfold iblk0
  show V c main_arg0 (((cfg0.win 2).blk t).view.emb (ix2 q cc)) = V c main_arg0 (ix2 r cc)
  refine congrArg _ (funext fun a => Fin.ext ?_)
  match a with
  | ⟨0, _⟩ => show win0_2.index t (0 : Fin 2) * 5000 + 1 * q.val = r.val; rw [e0, hr]; omega
  | ⟨1, _⟩ => show win0_2.index t (1 : Fin 2) * 64 + 1 * cc.val = cc.val; rw [e1]; omega

/-- The weights and the bias are read whole at every grid point. -/
theorem whole0_3 (c : Dev nD) (t : Fin cfg0.N) : (iblk0 V c 3 t : Vec Ideal S128x64 .f32) = (V c main_arg2 : S128x64.Idx → EReal) := by
  obtain ⟨-, -, -, -, -, -, e0, e1, -⟩ := tiles0 t
  unfold iblk0
  funext y
  show V c main_arg2 (((cfg0.win 3).blk t).view.emb y) = V c main_arg2 y
  refine congrArg _ (funext fun a => Fin.ext ?_)
  match a with
  | ⟨0, _⟩ => show win0_3.index t (0 : Fin 2) * 128 + 1 * (y 0).val = (y 0).val; rw [e0]; omega
  | ⟨1, _⟩ => show win0_3.index t (1 : Fin 2) * 64 + 1 * (y 1).val = (y 1).val; rw [e1]; omega

theorem whole0_4 (c : Dev nD) (t : Fin cfg0.N) : (iblk0 V c 4 t : Vec Ideal S128 .f32) = (V c main_arg3 : S128.Idx → EReal) := by
  obtain ⟨-, -, -, -, -, -, -, -, e0, -⟩ := tiles0 t
  unfold iblk0
  funext y
  show V c main_arg3 (((cfg0.win 4).blk t).view.emb y) = V c main_arg3 y
  refine congrArg _ (funext fun a => Fin.ext ?_)
  match a with
  | ⟨0, _⟩ => show win0_4.index t (0 : Fin 1) * 128 + 1 * (y 0).val = (y 0).val; rw [e0]; omega

theorem whole0_5 (c : Dev nD) (t : Fin cfg0.N) : (iblk0 V c 5 t : Vec Ideal S128x64 .f32) = (V c main_arg4 : S128x64.Idx → EReal) := by
  obtain ⟨-, -, -, -, -, -, -, -, -, e0, e1, -⟩ := tiles0 t
  unfold iblk0
  funext y
  show V c main_arg4 (((cfg0.win 5).blk t).view.emb y) = V c main_arg4 y
  refine congrArg _ (funext fun a => Fin.ext ?_)
  match a with
  | ⟨0, _⟩ => show win0_5.index t (0 : Fin 2) * 128 + 1 * (y 0).val = (y 0).val; rw [e0]; omega
  | ⟨1, _⟩ => show win0_5.index t (1 : Fin 2) * 64 + 1 * (y 1).val = (y 1).val; rw [e1]; omega

/-- What grid point `t` writes back is tile `t` of the whole layer. -/
theorem flushed0 (c : Dev nD) (t : Fin cfg0.N) :
    (dat0 V c).flushed 6 t = ((cfg0.win 6).blk t).view.read (Elt Ideal) (G0 V c) := by
  show (cfg0.win 6).cut (grid0.coords t) ((dat0 V c).after 6 t) = _
  rw [after0_6]
  unfold out0_6
  rw [View.canon_unit_zero hz2]
  simp only [View.ld_unit_zero (S := S5000x64) hz2, View.ld_unit_zero (S := S5000x1) hz2,
    View.ld_unit_zero (S := S128x64) hz2, View.ld_unit_zero (S := S128) hz1]
  obtain ⟨-, -, -, -, -, -, -, -, -, -, -, e0, e1⟩ := tiles0 t
  funext j
  refine tile0_eq _ _ _ _ _ _ _ _ _ _ _ _ t.val (fun q cc r hr => read0_0 V c t q cc r hr) (fun q r hr => read0_1 V c t q r hr)
    (fun q cc r hr => read0_2 V c t q cc r hr) (whole0_3 V c t) (whole0_4 V c t) (whole0_5 V c t) j _ ?_ ?_
  · show win0_6.index t (0 : Fin 2) * 5000 + 1 * (j 0).val = t.val * 5000 + (j 0).val; rw [e0]; omega
  · show win0_6.index t (1 : Fin 2) * 128 + 1 * (j 1).val = (j 1).val; rw [e1]; omega

/-- An index of the result is in tile `t` iff each coordinate is in the tile's range. -/
theorem mem_tile0 (t : Fin cfg0.N) (i : S50000x128.Idx) :
    i ∈ ((cfg0.win 6).blk t).view.set ↔ ∀ a : Fin 2, win0_6.index t a * S5000x128.size a ≤ (i a).val
      ∧ (i a).val < win0_6.index t a * S5000x128.size a + S5000x128.size a := by
  show i ∈ ((View.whole main_v23).slice (win0_6.rect t)).set ↔ _
  rw [View.set_slice_whole, Rect.mem_set_unit]
  exact Iff.rfl

/-- THE FIRST KERNEL'S RESULT: the layer of the arrays the kernel is entered with. Row `i` lies in tile `i / 5000`. -/
theorem result0 (c : Dev nD) : (dat0 V c).arrAt 6 cfg0.N = G0 V c :=
  (dat0 V c).arrAt_eq_of_cover 6 (G0 V c) (fun t _ => flushed0 V c t) fun i => by
    have hi0 : (i 0).val < 50000 := (i 0).isLt
    have hi1 : (i 1).val < 128 := (i 1).isLt
    have hN : cfg0.N = 10 := N_0
    refine ⟨⟨(i 0).val / 5000, by rw [hN]; omega⟩, flush0_6 _, ?_⟩
    rw [mem_tile0]
    obtain ⟨-, -, -, -, -, -, -, -, -, -, -, e0, e1⟩ := tiles0 ⟨(i 0).val / 5000, by rw [hN]; omega⟩
    intro a
    match a with
    | ⟨0, _⟩ =>
      show win0_6.index _ (0 : Fin 2) * 5000 ≤ (i 0).val ∧ (i 0).val < win0_6.index _ (0 : Fin 2) * 5000 + 5000
      rw [e0]; show (i 0).val / 5000 * 5000 ≤ (i 0).val ∧ (i 0).val < (i 0).val / 5000 * 5000 + 5000; omega
    | ⟨1, _⟩ =>
      show win0_6.index _ (1 : Fin 2) * 128 ≤ (i 1).val ∧ (i 1).val < win0_6.index _ (1 : Fin 2) * 128 + 128
      rw [e1]; omega

/-! ## The second kernel -/

/-- The second kernel's result array as a function of the arrays it is entered with. -/
abbrev G1 (c : Dev nD) : S50000x2.Idx → EReal :=
  head (layer (V c main_v33 : S50000x128.Idx → EReal) (colAll (V c main_v12 : S50000x1.Idx → EReal))
      (V c main_v23 : S50000x128.Idx → EReal) (V c main_arg5 : S128x128.Idx → EReal) (V c main_arg6 : S128.Idx → EReal)
      (V c main_arg7 : S128x128.Idx → EReal))
    (V c main_arg8 : S2x128.Idx → EReal) (V c main_arg9 : S2.Idx → EReal)

theorem tiles1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 1) = 0
    ∧ win1_8.index t (0 : Fin 2) = t.val ∧ win1_8.index t (1 : Fin 2) = 0 :=
  (by decide +kernel : ∀ t : Fin grid1.N, _)

/-- One tile of the head on the layer, as rows `5000·tv …` of the whole. -/
theorem tile1_eq (A : S50000x128.Idx → EReal) (D : S50000x1.Idx → EReal) (X : S50000x128.Idx → EReal)
    (Wl : S128x128.Idx → EReal) (b : S128.Idx → EReal) (Wr : S128x128.Idx → EReal) (Wf : S2x128.Idx → EReal) (bf : S2.Idx → EReal)
    (x0 : Vec Ideal S5000x128 .f32) (x1 : Vec Ideal S5000x1 .f32) (x2 : Vec Ideal S5000x128 .f32)
    (x3 : Vec Ideal S128x128 .f32) (x4 : Vec Ideal S128 .f32) (x5 : Vec Ideal S128x128 .f32)
    (x6 : Vec Ideal S2x128 .f32) (x7 : Vec Ideal S2 .f32) (tv : Nat)
    (h0 : ∀ (q : Fin 5000) (cc : Fin 128) (r : Fin 50000), r.val = tv * 5000 + q.val → x0 (ix2 q cc) = A (ix2 r cc))
    (h1 : ∀ (q : Fin 5000) (r : Fin 50000), r.val = tv * 5000 + q.val → x1 (ix2 q (0 : Fin 1)) = D (ix2 r (0 : Fin 1)))
    (h2 : ∀ (q : Fin 5000) (cc : Fin 128) (r : Fin 50000), r.val = tv * 5000 + q.val → x2 (ix2 q cc) = X (ix2 r cc))
    (h3 : x3 = Wl) (h4 : x4 = b) (h5 : x5 = Wr) (h6 : x6 = Wf) (h7 : x7 = bf)
    (y : S5000x2.Idx) (i : S50000x2.Idx) (hi0 : (i 0).val = tv * 5000 + (y 0).val) (hi1 : (i 1).val = (y 1).val) :
    k1_pay1 (F := Ideal) x0 x1 x2 x3 x5 x4 x6 x7 y = head (layer A (colAll D) X Wl b Wr) Wf bf i := by
  obtain ⟨q, o, rfl⟩ : ∃ (q : Fin 5000) (o : Fin 2), y = ix2 q o := ⟨y 0, y 1, eq_ix2 y⟩
  obtain ⟨r, o', rfl⟩ : ∃ (r : Fin 50000) (o' : Fin 2), i = ix2 r o' := ⟨i 0, i 1, eq_ix2 i⟩
  have hr : r.val = tv * 5000 + q.val := hi0
  obtain rfl : o' = o := Fin.ext hi1
  rw [pay1_apply, head_ix2]
  unfold headAt
  subst h3 h4 h5 h6 h7
  refine congrArg₂ (· + ·) (Finset.sum_congr rfl fun cc _ => ?_) rfl
  rw [layer_ix2, layer_ix2]
  unfold layerAt colOf colAll
  simp only [h0 _ _ r hr, h1 _ r hr, h2 _ _ r hr]

theorem read1_0 (c : Dev nD) (t : Fin cfg1.N) (q : Fin 5000) (cc : Fin 128) (r : Fin 50000) (hr : r.val = t.val * 5000 + q.val) :
    (iblk1 V c 0 t : Vec Ideal S5000x128 .f32) (ix2 q cc) = (V c main_v33 : S50000x128.Idx → EReal) (ix2 r cc) := by
  obtain ⟨e0, e1, -⟩ := tiles1 t
  unfold iblk1
  show V c main_v33 (((cfg1.win 0).blk t).view.emb (ix2 q cc)) = V c main_v33 (ix2 r cc)
  refine congrArg _ (funext fun a => Fin.ext ?_)
  match a with
  | ⟨0, _⟩ => show win1_0.index t (0 : Fin 2) * 5000 + 1 * q.val = r.val; rw [e0, hr]; omega
  | ⟨1, _⟩ => show win1_0.index t (1 : Fin 2) * 128 + 1 * cc.val = cc.val; rw [e1]; omega

theorem read1_1 (c : Dev nD) (t : Fin cfg1.N) (q : Fin 5000) (r : Fin 50000) (hr : r.val = t.val * 5000 + q.val) :
    (iblk1 V c 1 t : Vec Ideal S5000x1 .f32) (ix2 q (0 : Fin 1)) = (V c main_v12 : S50000x1.Idx → EReal) (ix2 r (0 : Fin 1)) := by
  obtain ⟨-, -, e0, e1, -⟩ := tiles1 t
  unfold iblk1
  show V c main_v12 (((cfg1.win 1).blk t).view.emb (ix2 q (0 : Fin 1))) = V c main_v12 (ix2 r (0 : Fin 1))
  refine congrArg _ (funext fun a => Fin.ext ?_)
  match a with
  | ⟨0, _⟩ => show win1_1.index t (0 : Fin 2) * 5000 + 1 * q.val = r.val; rw [e0, hr]; omega
  | ⟨1, _⟩ => show win1_1.index t (1 : Fin 2) * 1 + 1 * 0 = 0; rw [e1]

theorem read1_2 (c : Dev nD) (t : Fin cfg1.N) (q : Fin 5000) (cc : Fin 128) (r : Fin 50000) (hr : r.val = t.val * 5000 + q.val) :
    (iblk1 V c 2 t : Vec Ideal S5000x128 .f32) (ix2 q cc) = (V c main_v23 : S50000x128.Idx → EReal) (ix2 r cc) := by
  obtain ⟨-, -, -, -, e0, e1, -⟩ := tiles1 t
  unfold iblk1
  show V c main_v23 (((cfg1.win 2).blk t).view.emb (ix2 q cc)) = V c main_v23 (ix2 r cc)
  refine congrArg _ (funext fun a => Fin.ext ?_)
  match a with
  | ⟨0, _⟩ => show win1_2.index t (0 : Fin 2) * 5000 + 1 * q.val = r.val; rw [e0, hr]; omega
  | ⟨1, _⟩ => show win1_2.index t (1 : Fin 2) * 128 + 1 * cc.val = cc.val; rw [e1]; omega

theorem whole1_3 (c : Dev nD) (t : Fin cfg1.N) : (iblk1 V c 3 t : Vec Ideal S128x128 .f32) = (V c main_arg5 : S128x128.Idx → EReal) := by
  obtain ⟨-, -, -, -, -, -, e0, e1, -⟩ := tiles1 t
  unfold iblk1
  funext y
  show V c main_arg5 (((cfg1.win 3).blk t).view.emb y) = V c main_arg5 y
  refine congrArg _ (funext fun a => Fin.ext ?_)
  match a with
  | ⟨0, _⟩ => show win1_3.index t (0 : Fin 2) * 128 + 1 * (y 0).val = (y 0).val; rw [e0]; omega
  | ⟨1, _⟩ => show win1_3.index t (1 : Fin 2) * 128 + 1 * (y 1).val = (y 1).val; rw [e1]; omega

theorem whole1_4 (c : Dev nD) (t : Fin cfg1.N) : (iblk1 V c 4 t : Vec Ideal S128 .f32) = (V c main_arg6 : S128.Idx → EReal) := by
  obtain ⟨-, -, -, -, -, -, -, -, e0, -⟩ := tiles1 t
  unfold iblk1
  funext y
  show V c main_arg6 (((cfg1.win 4).blk t).view.emb y) = V c main_arg6 y
  refine congrArg _ (funext fun a => Fin.ext ?_)
  match a with
  | ⟨0, _⟩ => show win1_4.index t (0 : Fin 1) * 128 + 1 * (y 0).val = (y 0).val; rw [e0]; omega

theorem whole1_5 (c : Dev nD) (t : Fin cfg1.N) : (iblk1 V c 5 t : Vec Ideal S128x128 .f32) = (V c main_arg7 : S128x128.Idx → EReal) := by
  obtain ⟨-, -, -, -, -, -, -, -, -, e0, e1, -⟩ := tiles1 t
  unfold iblk1
  funext y
  show V c main_arg7 (((cfg1.win 5).blk t).view.emb y) = V c main_arg7 y
  refine congrArg _ (funext fun a => Fin.ext ?_)
  match a with
  | ⟨0, _⟩ => show win1_5.index t (0 : Fin 2) * 128 + 1 * (y 0).val = (y 0).val; rw [e0]; omega
  | ⟨1, _⟩ => show win1_5.index t (1 : Fin 2) * 128 + 1 * (y 1).val = (y 1).val; rw [e1]; omega

theorem whole1_6 (c : Dev nD) (t : Fin cfg1.N) : (iblk1 V c 6 t : Vec Ideal S2x128 .f32) = (V c main_arg8 : S2x128.Idx → EReal) := by
  obtain ⟨-, -, -, -, -, -, -, -, -, -, -, e0, e1, -⟩ := tiles1 t
  unfold iblk1
  funext y
  show V c main_arg8 (((cfg1.win 6).blk t).view.emb y) = V c main_arg8 y
  refine congrArg _ (funext fun a => Fin.ext ?_)
  match a with
  | ⟨0, _⟩ => show win1_6.index t (0 : Fin 2) * 2 + 1 * (y 0).val = (y 0).val; rw [e0]; omega
  | ⟨1, _⟩ => show win1_6.index t (1 : Fin 2) * 128 + 1 * (y 1).val = (y 1).val; rw [e1]; omega

theorem whole1_7 (c : Dev nD) (t : Fin cfg1.N) : (iblk1 V c 7 t : Vec Ideal S2 .f32) = (V c main_arg9 : S2.Idx → EReal) := by
  obtain ⟨-, -, -, -, -, -, -, -, -, -, -, -, -, e0, -⟩ := tiles1 t
  unfold iblk1
  funext y
  show V c main_arg9 (((cfg1.win 7).blk t).view.emb y) = V c main_arg9 y
  refine congrArg _ (funext fun a => Fin.ext ?_)
  match a with
  | ⟨0, _⟩ => show win1_7.index t (0 : Fin 1) * 2 + 1 * (y 0).val = (y 0).val; rw [e0]; omega

/-- What grid point `t` writes back is tile `t` of the whole head on the layer. -/
theorem flushed1 (c : Dev nD) (t : Fin cfg1.N) :
    (dat1 V c).flushed 8 t = ((cfg1.win 8).blk t).view.read (Elt Ideal) (G1 V c) := by
  show (cfg1.win 8).cut (grid1.coords t) ((dat1 V c).after 8 t) = _
  rw [after1_8]
  unfold out1_8
  rw [View.canon_unit_zero hz2]
  simp only [View.ld_unit_zero (S := S5000x128) hz2, View.ld_unit_zero (S := S5000x1) hz2,
    View.ld_unit_zero (S := S128x128) hz2, View.ld_unit_zero (S := S128) hz1, View.ld_unit_zero (S := S2x128) hz2,
    View.ld_unit_zero (S := S2) hz1]
  obtain ⟨-, -, -, -, -, -, -, -, -, -, -, -, -, -, e0, e1⟩ := tiles1 t
  funext j
  refine tile1_eq _ _ _ _ _ _ _ _ _ _ _ _ _ _ _ _ t.val (fun q cc r hr => read1_0 V c t q cc r hr) (fun q r hr => read1_1 V c t q r hr)
    (fun q cc r hr => read1_2 V c t q cc r hr) (whole1_3 V c t) (whole1_4 V c t) (whole1_5 V c t) (whole1_6 V c t) (whole1_7 V c t) j _ ?_ ?_
  · show win1_8.index t (0 : Fin 2) * 5000 + 1 * (j 0).val = t.val * 5000 + (j 0).val; rw [e0]; omega
  · show win1_8.index t (1 : Fin 2) * 2 + 1 * (j 1).val = (j 1).val; rw [e1]; omega

theorem mem_tile1 (t : Fin cfg1.N) (i : S50000x2.Idx) :
    i ∈ ((cfg1.win 8).blk t).view.set ↔ ∀ a : Fin 2, win1_8.index t a * S5000x2.size a ≤ (i a).val
      ∧ (i a).val < win1_8.index t a * S5000x2.size a + S5000x2.size a := by
  show i ∈ ((View.whole main_v34).slice (win1_8.rect t)).set ↔ _
  rw [View.set_slice_whole, Rect.mem_set_unit]
  exact Iff.rfl

/-- THE SECOND KERNEL'S RESULT: the head on the layer of the arrays the kernel is entered with. -/
theorem result1 (c : Dev nD) : (dat1 V c).arrAt 8 cfg1.N = G1 V c :=
  (dat1 V c).arrAt_eq_of_cover 8 (G1 V c) (fun t _ => flushed1 V c t) fun i => by
    have hi0 : (i 0).val < 50000 := (i 0).isLt
    have hi1 : (i 1).val < 2 := (i 1).isLt
    have hN : cfg1.N = 10 := N_1
    refine ⟨⟨(i 0).val / 5000, by rw [hN]; omega⟩, flush1_8 _, ?_⟩
    rw [mem_tile1]
    obtain ⟨-, -, -, -, -, -, -, -, -, -, -, -, -, -, e0, e1⟩ := tiles1 ⟨(i 0).val / 5000, by rw [hN]; omega⟩
    intro a
    match a with
    | ⟨0, _⟩ =>
      show win1_8.index _ (0 : Fin 2) * 5000 ≤ (i 0).val ∧ (i 0).val < win1_8.index _ (0 : Fin 2) * 5000 + 5000
      rw [e0]; show (i 0).val / 5000 * 5000 ≤ (i 0).val ∧ (i 0).val < (i 0).val / 5000 * 5000 + 5000; omega
    | ⟨1, _⟩ =>
      show win1_8.index _ (1 : Fin 2) * 2 ≤ (i 1).val ∧ (i 1).val < win1_8.index _ (1 : Fin 2) * 2 + 2
      rw [e1]; omega

end Cert.Sage.Region

end
-- ==== Proof.HostGlue.lean ====
/-
  The graph operations both programs run on the host, named once.

  From the edge list (row 0: sources, row 1: destinations) the host computes, for a feature array `h` with one row per
  node: the destinations as a column of scatter indices (`dst`); the sources, a negative index shifted up by the number of
  nodes, as a column of gather indices (`src`); the reciprocal of each node's in-degree, the degree counted by adding a
  one per edge and floored at one (`degInv`, and `degCol` as a column); and the sum over every edge into a node of the
  feature row of the edge's source (`neighbourSum`). Nothing here is opened by the proof: both programs apply these
  same operations, and equal arguments give equal results.
-/
import proofs.«157365_j40089224741075_2_alg».proof.KernelIdeal
import proofs.«157365_j40089224741075_2_alg».proof.Proof.Gen.KernelIdeal
import Idealize.ShloMosaic.PureOps.Ideal

noncomputable section

namespace Cert.Sage.Glue

open Idealize.ShloMosaic Cert.KernelIdeal
open Cert.KernelIdeal.Facts₀

/-- The edges' destinations, one scatter index per edge. -/
def dst (ei : (⟨S2x800000, .i32⟩ : BufTy).Contents (Elt Ideal)) : (⟨S800000x1, .i32⟩ : BufTy).Contents (Elt Ideal) :=
  broadcastInDim S800000x1 ![0] bcast_S800000_S800000x1_0
    (shapeCast _ (extractStridedSlice S1x800000 ![1, 0] ei slices_S2x800000_S1x800000_1_0) shapeCasts_S1x800000_S800000)

/-- The edges' sources, one gather index per edge; a negative index is counted from the end. -/
def src (ei : (⟨S2x800000, .i32⟩ : BufTy).Contents (Elt Ideal)) : (⟨S800000x1, .i32⟩ : BufTy).Contents (Elt Ideal) :=
  broadcastInDim S800000x1 ![0] bcast_S800000_S800000x1_0
    (select
      (cmpi .slt (shapeCast _ (extractStridedSlice S1x800000 ![0, 0] ei slices_S2x800000_S1x800000_0_0) shapeCasts_S1x800000_S800000)
        (broadcastInDim S800000 ![] bcast_S_S800000 (constantI S_ 32 0#32)))
      (addi (shapeCast _ (extractStridedSlice S1x800000 ![0, 0] ei slices_S2x800000_S1x800000_0_0) shapeCasts_S1x800000_S800000)
        (broadcastInDim S800000 ![] bcast_S_S800000 (constantI S_ 32 50000#32)))
      (shapeCast _ (extractStridedSlice S1x800000 ![0, 0] ei slices_S2x800000_S1x800000_0_0) shapeCasts_S1x800000_S800000))

/-- One over each node's in-degree, the degree floored at one. -/
def degInv (ei : (⟨S2x800000, .i32⟩ : BufTy).Contents (Elt Ideal)) : (⟨S50000, .f32⟩ : BufTy).Contents (Elt Ideal) :=
  Host.divf (F := Ideal) (broadcastInDim S50000 ![] bcast_S_S50000 (constant (F := Ideal) S_ .f32 0x3F800000#32))
    (maximumf
      (Host.scatterAdd (F := Ideal) scatter_S50000_S800000x1_S800000_n_0_0_1
        (broadcastInDim S50000 ![] bcast_S_S50000 (constant (F := Ideal) S_ .f32 0x00000000#32)) (dst ei)
        (broadcastInDim S800000 ![] bcast_S_S800000 (constant (F := Ideal) S_ .f32 0x3F800000#32)))
      (broadcastInDim S50000 ![] bcast_S_S50000 (constant (F := Ideal) S_ .f32 0x3F800000#32)))

/-- The same laid out as a column. -/
def degCol (ei : (⟨S2x800000, .i32⟩ : BufTy).Contents (Elt Ideal)) : (⟨S50000x1, .f32⟩ : BufTy).Contents (Elt Ideal) :=
  shapeCast _ (degInv ei) shapeCasts_S50000_S50000x1

/-- For every node, the sum over its incoming edges of the sources' rows of `x` (64 features). -/
def neighbourSum64 (x : (⟨S50000x64, .f32⟩ : BufTy).Contents (Elt Ideal)) (ei : (⟨S2x800000, .i32⟩ : BufTy).Contents (Elt Ideal)) :
    (⟨S50000x64, .f32⟩ : BufTy).Contents (Elt Ideal) :=
  Host.scatterAdd (F := Ideal) scatter_S50000x64_S800000x1_S800000x64_1_0_0_1
    (broadcastInDim S50000x64 ![] bcast_S_S50000x64 (constant (F := Ideal) S_ .f32 0x00000000#32)) (dst ei)
    (Host.gather gather_S50000x64_S800000x1_S800000x64_1_0_n_n_0_1_164 x (src ei))

/-- The same for 128 features. -/
def neighbourSum128 (h : (⟨S50000x128, .f32⟩ : BufTy).Contents (Elt Ideal)) (ei : (⟨S2x800000, .i32⟩ : BufTy).Contents (Elt Ideal)) :
    (⟨S50000x128, .f32⟩ : BufTy).Contents (Elt Ideal) :=
  Host.scatterAdd (F := Ideal) scatter_S50000x128_S800000x1_S800000x128_1_0_0_1
    (broadcastInDim S50000x128 ![] bcast_S_S50000x128 (constant (F := Ideal) S_ .f32 0x00000000#32)) (dst ei)
    (Host.gather gather_S50000x128_S800000x1_S800000x128_1_0_n_n_0_1_1128 h (src ei))

end Cert.Sage.Glue

end
-- ==== Proof.Network.lean ====
/-
  The whole network as one function of the arguments.

  `hidden` is the first layer on the node features and their neighbour sums; `out` is the head on the second layer,
  which is taken on the hidden features and THEIR neighbour sums. The reciprocal degrees are those of `HostGlue`.
-/
import proofs.«157365_j40089224741075_2_alg».proof.Proof.HostGlue
import proofs.«157365_j40089224741075_2_alg».proof.Proof.SageLayer

noncomputable section

namespace Cert.Sage

open Idealize.ShloMosaic Idealize.ShloMosaic.ValueIdx Cert.KernelIdeal Cert.Sage.Glue

/-- The reciprocal degree of node `i`. -/
abbrev recipDeg (ei : (⟨S2x800000, .i32⟩ : BufTy).Contents (Elt Ideal)) : Fin 50000 → EReal := fun i => degInv ei (ix1 i)

/-- The hidden features: the first layer. -/
def hidden (x : S50000x64.Idx → EReal) (ei : (⟨S2x800000, .i32⟩ : BufTy).Contents (Elt Ideal))
    (Wl0 : S128x64.Idx → EReal) (b0 : S128.Idx → EReal) (Wr0 : S128x64.Idx → EReal) : S50000x128.Idx → EReal :=
  layer (neighbourSum64 x ei : S50000x64.Idx → EReal) (recipDeg ei) x Wl0 b0 Wr0

/-- The network's output: the head on the second layer. -/
def out (x : S50000x64.Idx → EReal) (ei : (⟨S2x800000, .i32⟩ : BufTy).Contents (Elt Ideal))
    (Wl0 : S128x64.Idx → EReal) (b0 : S128.Idx → EReal) (Wr0 : S128x64.Idx → EReal)
    (Wl1 : S128x128.Idx → EReal) (b1 : S128.Idx → EReal) (Wr1 : S128x128.Idx → EReal)
    (Wfc : S2x128.Idx → EReal) (bfc : S2.Idx → EReal) : S50000x2.Idx → EReal :=
  head (layer (neighbourSum128 (hidden x ei Wl0 b0 Wr0) ei : S50000x128.Idx → EReal) (recipDeg ei)
    (hidden x ei Wl0 b0 Wr0) Wl1 b1 Wr1) Wfc bfc

end Cert.Sage

end
-- ==== Proof.KernelValue.lean ====
/-
  The idealized kernel program's result as a function of its arguments.

  The fold of the program's four stretches is read at the result buffer, backwards: the second kernel leaves the head on
  the second layer of the arrays it is entered with (`RegionArrays`); of those, the neighbour sums are the host's
  gather and scatter-add of the first kernel's result, the reciprocal-degree column is the one the first host stretch
  computed (no later stretch writes it), and the hidden features are the first kernel's result, which is the first layer
  of ITS entry arrays: the host's neighbour sums of the node features, the same column, and the arguments. So the result
  is `Cert.Sage.out` of the ten arguments.
-/
import proofs.«157365_j40089224741075_2_alg».proof.Proof.Gen.KernelIdeal.Frame
import proofs.«157365_j40089224741075_2_alg».proof.Proof.RegionArrays
import proofs.«157365_j40089224741075_2_alg».proof.Proof.Network
import proofs.«157365_j40089224741075_2_alg».proof.Proof.LibColumnForms
import Idealize.ShloMosaic.Lib.StableHlo.Run

set_option maxRecDepth 16384

noncomputable section

namespace Cert.Sage.KernelValue

open Idealize.ShloMosaic Idealize.ShloMosaic.TcCoe Idealize.ShloMosaic.ValueIdx Idealize.SL.Sem Idealize.ShloMosaic.StableHlo
open Cert.KernelIdeal Cert.KernelIdeal.Gen Cert.Sage.Region Cert.Sage.Glue

variable (m : (ℓ : Loc nD τ sig) → Buf (Elt Ideal) ℓ) (ρ : Dev nD → PrngReg)

/-- The column of reciprocal degrees read row by row is the vector of reciprocal degrees. -/
theorem colAll_degCol (ei : (⟨S2x800000, .i32⟩ : BufTy).Contents (Elt Ideal)) :
    colAll (degCol ei : S50000x1.Idx → EReal) = recipDeg ei :=
  funext fun i => Cert.ColumnForms.shapeCast_a_a1_apply _ _ i (0 : Fin 1)

/-! ## What the first kernel is entered with -/

set_option maxHeartbeats 2000000 in
theorem V1_v22 (c : Dev nD) : (V1 m ρ c main_v22 : S50000x64.Idx → EReal)
    = neighbourSum64 (m ((c.tc : Thread nD τ).loc main_arg0)) (m ((c.tc : Thread nD τ).loc main_arg1)) := by
  dsimp only [V1, W1, hostOps0]
  after_results_simp
  rfl

set_option maxHeartbeats 2000000 in
theorem V1_v12 (c : Dev nD) : (V1 m ρ c main_v12 : S50000x1.Idx → EReal) = degCol (m ((c.tc : Thread nD τ).loc main_arg1)) := by
  dsimp only [V1, W1, hostOps0]
  after_results_simp
  rfl

set_option maxHeartbeats 2000000 in
theorem V1_v1 (c : Dev nD) : (W1 m ρ c (Proc.devRef .tc main_v1) : S800000.Idx → BitVec 32)
    = shapeCast _ (extractStridedSlice S1x800000 ![0, 0] (m ((c.tc : Thread nD τ).loc main_arg1)) Facts₀.slices_S2x800000_S1x800000_0_0)
        Facts₀.shapeCasts_S1x800000_S800000 := by
  dsimp only [W1, hostOps0]
  after_results_simp
  rfl

set_option maxHeartbeats 2000000 in
theorem V1_v3 (c : Dev nD) : (W1 m ρ c (Proc.devRef .tc main_v3) : S800000.Idx → BitVec 32)
    = shapeCast _ (extractStridedSlice S1x800000 ![1, 0] (m ((c.tc : Thread nD τ).loc main_arg1)) Facts₀.slices_S2x800000_S1x800000_1_0)
        Facts₀.shapeCasts_S1x800000_S800000 := by
  dsimp only [W1, hostOps0]
  after_results_simp
  rfl

set_option maxHeartbeats 2000000 in
theorem V1_args (c : Dev nD) : (V1 m ρ c main_arg0 : S50000x64.Idx → EReal) = m ((c.tc : Thread nD τ).loc main_arg0)
    ∧ (V1 m ρ c main_arg2 : S128x64.Idx → EReal) = m ((c.tc : Thread nD τ).loc main_arg2)
    ∧ (V1 m ρ c main_arg3 : S128.Idx → EReal) = m ((c.tc : Thread nD τ).loc main_arg3)
    ∧ (V1 m ρ c main_arg4 : S128x64.Idx → EReal) = m ((c.tc : Thread nD τ).loc main_arg4) := by
  refine ⟨?_, ?_, ?_, ?_⟩ <;> (dsimp only [V1, W1, hostOps0]; after_results_simp)

/-! ## What the first kernel leaves, and what the second is entered with -/

/-- The first kernel's result array holds the hidden features. -/
theorem W2_v23 (c : Dev nD) : (W2 m ρ c (Proc.devRef .tc main_v23) : S50000x128.Idx → EReal)
    = hidden (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)) := by
  refine (W2_arr m ρ c 6).trans ((result0 (V1 m ρ) c).trans ?_)
  obtain ⟨e0, e2, e3, e4⟩ := V1_args m ρ c
  show layer (V1 m ρ c main_v22 : S50000x64.Idx → EReal) (colAll (V1 m ρ c main_v12 : S50000x1.Idx → EReal))
    (V1 m ρ c main_arg0 : S50000x64.Idx → EReal) (V1 m ρ c main_arg2 : S128x64.Idx → EReal) (V1 m ρ c main_arg3 : S128.Idx → EReal)
    (V1 m ρ c main_arg4 : S128x64.Idx → EReal) = _
  rw [V1_v22 m ρ c, V1_v12 m ρ c, e0, e2, e3, e4, colAll_degCol]
  rfl

/-- The reciprocal-degree column is still what the first host stretch computed: the first kernel only reads it. -/
theorem W2_v12 (c : Dev nD) : (W2 m ρ c (Proc.devRef .tc main_v12) : S50000x1.Idx → EReal) = degCol (m ((c.tc : Thread nD τ).loc main_arg1)) :=
  ((W2_arr m ρ c 1).trans (((dat0 (V1 m ρ) c).arrAt_in 1 rfl _).trans (A_eq0 (V1 m ρ) c 1))).trans (V1_v12 m ρ c)

/-- So are the edge list's two rows. -/
theorem W2_v1 (c : Dev nD) : (W2 m ρ c (Proc.devRef .tc main_v1) : S800000.Idx → BitVec 32)
    = shapeCast _ (extractStridedSlice S1x800000 ![0, 0] (m ((c.tc : Thread nD τ).loc main_arg1)) Facts₀.slices_S2x800000_S1x800000_0_0)
        Facts₀.shapeCasts_S1x800000_S800000 :=
  (W2_of_ne m ρ c main_v1 (by decide)).trans (V1_v1 m ρ c)

theorem W2_v3 (c : Dev nD) : (W2 m ρ c (Proc.devRef .tc main_v3) : S800000.Idx → BitVec 32)
    = shapeCast _ (extractStridedSlice S1x800000 ![1, 0] (m ((c.tc : Thread nD τ).loc main_arg1)) Facts₀.slices_S2x800000_S1x800000_1_0)
        Facts₀.shapeCasts_S1x800000_S800000 :=
  (W2_of_ne m ρ c main_v3 (by decide)).trans (V1_v3 m ρ c)

set_option maxHeartbeats 2000000 in
/-- The second kernel's neighbour sums are the host's, of the hidden features. -/
theorem V3_v33 (c : Dev nD) : (V3 m ρ c main_v33 : S50000x128.Idx → EReal)
    = neighbourSum128 (hidden (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)))
        (m ((c.tc : Thread nD τ).loc main_arg1)) := by
  dsimp only [V3, W3, hostOps1]
  after_results_simp
  rw [W2_v23 m ρ c, W2_v1 m ρ c, W2_v3 m ρ c]
  rfl

set_option maxHeartbeats 2000000 in
theorem V3_v12 (c : Dev nD) : (V3 m ρ c main_v12 : S50000x1.Idx → EReal) = degCol (m ((c.tc : Thread nD τ).loc main_arg1)) := by
  dsimp only [V3, W3, hostOps1]
  after_results_simp
  exact W2_v12 m ρ c

set_option maxHeartbeats 2000000 in
theorem V3_v23 (c : Dev nD) : (V3 m ρ c main_v23 : S50000x128.Idx → EReal)
    = hidden (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)) := by
  dsimp only [V3, W3, hostOps1]
  after_results_simp
  exact W2_v23 m ρ c

/-- The second kernel's weights and biases are the arguments: it only reads them, so what it is entered with is what the
    run ends with, and that is the launch contents. -/
theorem V3_args (c : Dev nD) : (V3 m ρ c main_arg5 : S128x128.Idx → EReal) = m ((c.tc : Thread nD τ).loc main_arg5)
    ∧ (V3 m ρ c main_arg6 : S128.Idx → EReal) = m ((c.tc : Thread nD τ).loc main_arg6)
    ∧ (V3 m ρ c main_arg7 : S128x128.Idx → EReal) = m ((c.tc : Thread nD τ).loc main_arg7)
    ∧ (V3 m ρ c main_arg8 : S2x128.Idx → EReal) = m ((c.tc : Thread nD τ).loc main_arg8)
    ∧ (V3 m ρ c main_arg9 : S2.Idx → EReal) = m ((c.tc : Thread nD τ).loc main_arg9) :=
  ⟨((A_eq1 (V3 m ρ) c 3).symm.trans (((dat1 (V3 m ρ) c).arrAt_in 3 rfl _).symm.trans (W4_arr m ρ c 3).symm)).trans (W4_main_arg5 m ρ c),
   ((A_eq1 (V3 m ρ) c 4).symm.trans (((dat1 (V3 m ρ) c).arrAt_in 4 rfl _).symm.trans (W4_arr m ρ c 4).symm)).trans (W4_main_arg6 m ρ c),
   ((A_eq1 (V3 m ρ) c 5).symm.trans (((dat1 (V3 m ρ) c).arrAt_in 5 rfl _).symm.trans (W4_arr m ρ c 5).symm)).trans (W4_main_arg7 m ρ c),
   ((A_eq1 (V3 m ρ) c 6).symm.trans (((dat1 (V3 m ρ) c).arrAt_in 6 rfl _).symm.trans (W4_arr m ρ c 6).symm)).trans (W4_main_arg8 m ρ c),
   ((A_eq1 (V3 m ρ) c 7).symm.trans (((dat1 (V3 m ρ) c).arrAt_in 7 rfl _).symm.trans (W4_arr m ρ c 7).symm)).trans (W4_main_arg9 m ρ c)⟩

/-! ## The result -/

/-- THE KERNEL PROGRAM'S RESULT: the network's output on the arguments. -/
theorem result (c : Dev nD) : (W4 m ρ c (Proc.devRef .tc main_v34) : S50000x2.Idx → EReal)
    = out (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7))
        (m ((c.tc : Thread nD τ).loc main_arg8)) (m ((c.tc : Thread nD τ).loc main_arg9)) := by
  refine (W4_arr m ρ c 8).trans ((result1 (V3 m ρ) c).trans ?_)
  obtain ⟨e5, e6, e7, e8, e9⟩ := V3_args m ρ c
  show head (layer (V3 m ρ c main_v33 : S50000x128.Idx → EReal) (colAll (V3 m ρ c main_v12 : S50000x1.Idx → EReal))
      (V3 m ρ c main_v23 : S50000x128.Idx → EReal) (V3 m ρ c main_arg5 : S128x128.Idx → EReal) (V3 m ρ c main_arg6 : S128.Idx → EReal)
      (V3 m ρ c main_arg7 : S128x128.Idx → EReal))
    (V3 m ρ c main_arg8 : S2x128.Idx → EReal) (V3 m ρ c main_arg9 : S2.Idx → EReal) = _
  rw [V3_v33 m ρ c, V3_v12 m ρ c, V3_v23 m ρ c, e5, e6, e7, e8, e9, colAll_degCol]
  rfl

end Cert.Sage.KernelValue

end
-- ==== Proof.RefValue.lean ====
/-
  The idealized reference's result as a function of its arguments.

  The reference computes the same network with host operations only. Read entry by entry: each product with a
  transposed weight matrix is a sum over `c` of `left (i, c) · W (o, c)`; the reciprocal degrees are copied along the
  feature axis; the bias is added BEFORE the second product, which by `layerAt_bias_first` is the same entry; the
  rectifier is a maximum with the zero word. The gather and scatter-add that form the neighbour sums, and the degree
  count, are the very operations of `HostGlue`, applied here to equal arguments.
-/
import proofs.«157365_j40089224741075_2_alg».proof.Proof.Gen.ReferenceIdeal.Read
import proofs.«157365_j40089224741075_2_alg».proof.Proof.Network

noncomputable section

namespace Cert.Sage.RefValue

open Idealize.ShloMosaic Idealize.ShloMosaic.ValueIdx Cert.ReferenceIdeal Cert.ReferenceIdeal.Read

/-! ## The shared host operations -/

theorem degInv_eq (x1 : (⟨S2x800000, .i32⟩ : BufTy).Contents (Elt Ideal)) :
    val_main_v11 (F := Ideal) x1 = Cert.Sage.Glue.degInv x1 := rfl

theorem neighbourSum64_eq (x0 : (⟨S50000x64, .f32⟩ : BufTy).Contents (Elt Ideal)) (x1 : (⟨S2x800000, .i32⟩ : BufTy).Contents (Elt Ideal)) :
    val_main_v21 (F := Ideal) x0 x1 = Cert.Sage.Glue.neighbourSum64 x0 x1 := rfl

/-! ## The first layer -/

/-- The reference's hidden features are the first layer on the neighbour sums and the reciprocal degrees. -/
theorem hidden_layer (x0 : (⟨S50000x64, .f32⟩ : BufTy).Contents (Elt Ideal)) (x1 : (⟨S2x800000, .i32⟩ : BufTy).Contents (Elt Ideal))
    (x2 : (⟨S128x64, .f32⟩ : BufTy).Contents (Elt Ideal)) (x3 : (⟨S128, .f32⟩ : BufTy).Contents (Elt Ideal))
    (x4 : (⟨S128x64, .f32⟩ : BufTy).Contents (Elt Ideal)) :
    val_main_v33 (F := Ideal) x0 x1 x2 x3 x4
      = Cert.Sage.layer (val_main_v21 (F := Ideal) x0 x1) (fun r => val_main_v11 (F := Ideal) x1 (ix1 r)) x0 x2 x3 x4 := by
  funext i
  obtain ⟨r, o, rfl⟩ : ∃ (r : Fin 50000) (o : Fin 128), i = ix2 r o := ⟨i 0, i 1, eq_ix2 i⟩
  rw [Cert.Sage.layer_ix2, ← Cert.Sage.layerAt_bias_first]
  rw [val_main_v33_apply, val_main_v32_apply, val_main_v29_apply, val_main_v26_apply, val_main_v31_apply,
    val_main_v28_apply, val_main_v27_apply, val_main_call0_v0_apply, val_main_call0_cst_apply]
  have eb : idx_main_v27 (idx_main_v28 (ix2 r o)) = ix1 o :=
    funext fun a => Fin.ext (by match a with | ⟨0, _⟩ => rfl)
  have s1 : ∀ k : Fin 64, (val_main_v24 (F := Ideal) x0 x1) (lidx_main_v26 (ix2 r o) k) * (val_main_v25 (F := Ideal) x2) (ridx_main_v26 (ix2 r o) k)
      = (val_main_v21 (F := Ideal) x0 x1 (ix2 r k) * val_main_v11 (F := Ideal) x1 (ix1 r)) * x2 (ix2 o k) := fun k => by
    have e1 : lidx_main_v26 (ix2 r o) k = ix2 r k := funext fun a => Fin.ext (by match a with | ⟨0, _⟩ => rfl | ⟨1, _⟩ => rfl)
    have e2 : idx_main_v22 (idx_main_v23 (ix2 r k)) = ix1 r := funext fun a => Fin.ext (by match a with | ⟨0, _⟩ => rfl)
    have e3 : idx_main_v25 (ridx_main_v26 (ix2 r o) k) = ix2 o k := funext fun a => Fin.ext (by match a with | ⟨0, _⟩ => rfl | ⟨1, _⟩ => rfl)
    rw [e1, val_main_v24_apply, val_main_v23_apply, val_main_v22_apply, val_main_v25_apply, e2, e3]
    rfl
  have s2 : ∀ k : Fin 64, x0 (lidx_main_v31 (ix2 r o) k) * (val_main_v30 (F := Ideal) x4) (ridx_main_v31 (ix2 r o) k)
      = x0 (ix2 r k) * x4 (ix2 o k) := fun k => by
    have e1 : lidx_main_v31 (ix2 r o) k = ix2 r k := funext fun a => Fin.ext (by match a with | ⟨0, _⟩ => rfl | ⟨1, _⟩ => rfl)
    have e3 : idx_main_v30 (ridx_main_v31 (ix2 r o) k) = ix2 o k := funext fun a => Fin.ext (by match a with | ⟨0, _⟩ => rfl | ⟨1, _⟩ => rfl)
    rw [e1, val_main_v30_apply, e3]
  rw [eb, Finset.sum_congr rfl fun k _ => s1 k, Finset.sum_congr rfl fun k _ => s2 k]
  rfl

/-! ## The second layer and the head -/

theorem neighbourSum128_eq (x0 : (⟨S50000x64, .f32⟩ : BufTy).Contents (Elt Ideal)) (x1 : (⟨S2x800000, .i32⟩ : BufTy).Contents (Elt Ideal))
    (x2 : (⟨S128x64, .f32⟩ : BufTy).Contents (Elt Ideal)) (x3 : (⟨S128, .f32⟩ : BufTy).Contents (Elt Ideal))
    (x4 : (⟨S128x64, .f32⟩ : BufTy).Contents (Elt Ideal)) :
    val_main_v43 (F := Ideal) x0 x1 x2 x3 x4 = Cert.Sage.Glue.neighbourSum128 (val_main_v33 (F := Ideal) x0 x1 x2 x3 x4) x1 := rfl

/-- The reference's second-layer features are the layer on the hidden features and their neighbour sums. -/
theorem second_layer (x0 : (⟨S50000x64, .f32⟩ : BufTy).Contents (Elt Ideal)) (x1 : (⟨S2x800000, .i32⟩ : BufTy).Contents (Elt Ideal))
    (x2 : (⟨S128x64, .f32⟩ : BufTy).Contents (Elt Ideal)) (x3 : (⟨S128, .f32⟩ : BufTy).Contents (Elt Ideal))
    (x4 : (⟨S128x64, .f32⟩ : BufTy).Contents (Elt Ideal)) (x5 : (⟨S128x128, .f32⟩ : BufTy).Contents (Elt Ideal))
    (x6 : (⟨S128, .f32⟩ : BufTy).Contents (Elt Ideal)) (x7 : (⟨S128x128, .f32⟩ : BufTy).Contents (Elt Ideal)) :
    val_main_v55 (F := Ideal) x0 x1 x2 x3 x4 x5 x6 x7
      = Cert.Sage.layer (val_main_v43 (F := Ideal) x0 x1 x2 x3 x4) (fun r => val_main_v11 (F := Ideal) x1 (ix1 r))
          (val_main_v33 (F := Ideal) x0 x1 x2 x3 x4) x5 x6 x7 := by
  funext i
  obtain ⟨r, o, rfl⟩ : ∃ (r : Fin 50000) (o : Fin 128), i = ix2 r o := ⟨i 0, i 1, eq_ix2 i⟩
  rw [Cert.Sage.layer_ix2, ← Cert.Sage.layerAt_bias_first]
  rw [val_main_v55_apply, val_main_v54_apply, val_main_v51_apply, val_main_v48_apply, val_main_v53_apply,
    val_main_v50_apply, val_main_v49_apply, val_main_call1_v0_apply, val_main_call1_cst_apply]
  have eb : idx_main_v49 (idx_main_v50 (ix2 r o)) = ix1 o :=
    funext fun a => Fin.ext (by match a with | ⟨0, _⟩ => rfl)
  have s1 : ∀ k : Fin 128, (val_main_v46 (F := Ideal) x0 x1 x2 x3 x4) (lidx_main_v48 (ix2 r o) k) * (val_main_v47 (F := Ideal) x5) (ridx_main_v48 (ix2 r o) k)
      = (val_main_v43 (F := Ideal) x0 x1 x2 x3 x4 (ix2 r k) * val_main_v11 (F := Ideal) x1 (ix1 r)) * x5 (ix2 o k) := fun k => by
    have e1 : lidx_main_v48 (ix2 r o) k = ix2 r k := funext fun a => Fin.ext (by match a with | ⟨0, _⟩ => rfl | ⟨1, _⟩ => rfl)
    have e2 : idx_main_v44 (idx_main_v45 (ix2 r k)) = ix1 r := funext fun a => Fin.ext (by match a with | ⟨0, _⟩ => rfl)
    have e3 : idx_main_v47 (ridx_main_v48 (ix2 r o) k) = ix2 o k := funext fun a => Fin.ext (by match a with | ⟨0, _⟩ => rfl | ⟨1, _⟩ => rfl)
    rw [e1, val_main_v46_apply, val_main_v45_apply, val_main_v44_apply, val_main_v47_apply, e2, e3]
    rfl
  have s2 : ∀ k : Fin 128, (val_main_v33 (F := Ideal) x0 x1 x2 x3 x4) (lidx_main_v53 (ix2 r o) k) * (val_main_v52 (F := Ideal) x7) (ridx_main_v53 (ix2 r o) k)
      = val_main_v33 (F := Ideal) x0 x1 x2 x3 x4 (ix2 r k) * x7 (ix2 o k) := fun k => by
    have e1 : lidx_main_v53 (ix2 r o) k = ix2 r k := funext fun a => Fin.ext (by match a with | ⟨0, _⟩ => rfl | ⟨1, _⟩ => rfl)
    have e3 : idx_main_v52 (ridx_main_v53 (ix2 r o) k) = ix2 o k := funext fun a => Fin.ext (by match a with | ⟨0, _⟩ => rfl | ⟨1, _⟩ => rfl)
    rw [e1, val_main_v52_apply, e3]
  rw [eb, Finset.sum_congr rfl fun k _ => s1 k, Finset.sum_congr rfl fun k _ => s2 k]
  rfl

/-- The reference's result is the head on its second-layer features. -/
theorem head_eq (x0 : (⟨S50000x64, .f32⟩ : BufTy).Contents (Elt Ideal)) (x1 : (⟨S2x800000, .i32⟩ : BufTy).Contents (Elt Ideal))
    (x2 : (⟨S128x64, .f32⟩ : BufTy).Contents (Elt Ideal)) (x3 : (⟨S128, .f32⟩ : BufTy).Contents (Elt Ideal))
    (x4 : (⟨S128x64, .f32⟩ : BufTy).Contents (Elt Ideal)) (x5 : (⟨S128x128, .f32⟩ : BufTy).Contents (Elt Ideal))
    (x6 : (⟨S128, .f32⟩ : BufTy).Contents (Elt Ideal)) (x7 : (⟨S128x128, .f32⟩ : BufTy).Contents (Elt Ideal))
    (x8 : (⟨S2x128, .f32⟩ : BufTy).Contents (Elt Ideal)) (x9 : (⟨S2, .f32⟩ : BufTy).Contents (Elt Ideal)) :
    val_main_v60 (F := Ideal) x0 x1 x2 x3 x4 x5 x6 x7 x8 x9 = Cert.Sage.head (val_main_v55 (F := Ideal) x0 x1 x2 x3 x4 x5 x6 x7) x8 x9 := by
  funext i
  obtain ⟨r, o, rfl⟩ : ∃ (r : Fin 50000) (o : Fin 2), i = ix2 r o := ⟨i 0, i 1, eq_ix2 i⟩
  rw [Cert.Sage.head_ix2]
  unfold Cert.Sage.headAt
  rw [val_main_v60_apply, val_main_v57_apply, val_main_v59_apply, val_main_v58_apply]
  have eb : idx_main_v58 (idx_main_v59 (ix2 r o)) = ix1 o :=
    funext fun a => Fin.ext (by match a with | ⟨0, _⟩ => rfl)
  have s : ∀ k : Fin 128, (val_main_v55 (F := Ideal) x0 x1 x2 x3 x4 x5 x6 x7) (lidx_main_v57 (ix2 r o) k) * (val_main_v56 (F := Ideal) x8) (ridx_main_v57 (ix2 r o) k)
      = val_main_v55 (F := Ideal) x0 x1 x2 x3 x4 x5 x6 x7 (ix2 r k) * x8 (ix2 o k) := fun k => by
    have e1 : lidx_main_v57 (ix2 r o) k = ix2 r k := funext fun a => Fin.ext (by match a with | ⟨0, _⟩ => rfl | ⟨1, _⟩ => rfl)
    have e3 : idx_main_v56 (ridx_main_v57 (ix2 r o) k) = ix2 o k := funext fun a => Fin.ext (by match a with | ⟨0, _⟩ => rfl | ⟨1, _⟩ => rfl)
    rw [e1, val_main_v56_apply, e3]
  rw [eb, Finset.sum_congr rfl fun k _ => s k]
  rfl

/-- THE REFERENCE'S RESULT: the network's output on the arguments. -/
theorem result (x0 : (⟨S50000x64, .f32⟩ : BufTy).Contents (Elt Ideal)) (x1 : (⟨S2x800000, .i32⟩ : BufTy).Contents (Elt Ideal))
    (x2 : (⟨S128x64, .f32⟩ : BufTy).Contents (Elt Ideal)) (x3 : (⟨S128, .f32⟩ : BufTy).Contents (Elt Ideal))
    (x4 : (⟨S128x64, .f32⟩ : BufTy).Contents (Elt Ideal)) (x5 : (⟨S128x128, .f32⟩ : BufTy).Contents (Elt Ideal))
    (x6 : (⟨S128, .f32⟩ : BufTy).Contents (Elt Ideal)) (x7 : (⟨S128x128, .f32⟩ : BufTy).Contents (Elt Ideal))
    (x8 : (⟨S2x128, .f32⟩ : BufTy).Contents (Elt Ideal)) (x9 : (⟨S2, .f32⟩ : BufTy).Contents (Elt Ideal)) :
    val_main_v60 (F := Ideal) x0 x1 x2 x3 x4 x5 x6 x7 x8 x9 = Cert.Sage.out x0 x1 x2 x3 x4 x5 x6 x7 x8 x9 := by
  rw [head_eq, second_layer, neighbourSum128_eq, hidden_layer, neighbourSum64_eq, degInv_eq]
  rfl

end Cert.Sage.RefValue

end
-- ==== Proof.lean ====
/-
  A two-layer graph network with mean aggregation, as two tiled kernels between host operations, against the same
  network computed with host operations only.

  Over the extended reals both programs compute one function of the ten arguments (`Cert.Sage.out`, Proof/Network.lean):
  the head on the second layer, the second layer taken on the hidden features and their neighbour sums, the hidden
  features the first layer on the node features and theirs. The kernels tile the rows by 5000 and every row of a layer
  depends on that row of the row-tiled operands only, so tiling changes nothing; roundings to the narrow float format
  are the identity; the kernels add the bias after the second product and the reference before it, which is the same
  sum. The neighbour sums and the reciprocal degrees are the same host operations in both programs.
  The idealization rewrote nothing, so there is nothing to preserve.
-/
import proofs.«157365_j40089224741075_2_alg».proof.Defs
import proofs.«157365_j40089224741075_2_alg».proof.Proof.Gen.Kernel
import proofs.«157365_j40089224741075_2_alg».proof.Proof.Gen.Kernel.Skeleton
import proofs.«157365_j40089224741075_2_alg».proof.Proof.Gen.Kernel.Launch
import proofs.«157365_j40089224741075_2_alg».proof.Proof.Gen.Kernel.Points
import proofs.«157365_j40089224741075_2_alg».proof.Proof.Gen.Kernel.Frame
import proofs.«157365_j40089224741075_2_alg».proof.Proof.Gen.KernelIdeal
import proofs.«157365_j40089224741075_2_alg».proof.Proof.Gen.KernelIdeal.Skeleton
import proofs.«157365_j40089224741075_2_alg».proof.Proof.Gen.KernelIdeal.Launch
import proofs.«157365_j40089224741075_2_alg».proof.Proof.Gen.KernelIdeal.Points
import proofs.«157365_j40089224741075_2_alg».proof.Proof.Gen.KernelIdeal.Frame
import proofs.«157365_j40089224741075_2_alg».proof.Proof.Gen.ReferenceIdeal
import proofs.«157365_j40089224741075_2_alg».proof.Proof.Gen.ReferenceIdeal.Run
import proofs.«157365_j40089224741075_2_alg».proof.Proof.Gen.ReferenceIdeal.Read
import proofs.«157365_j40089224741075_2_alg».proof.Proof.Gen.Pre_finite_inputs
import proofs.«157365_j40089224741075_2_alg».proof.Proof.KernelRun
import proofs.«157365_j40089224741075_2_alg».proof.Proof.KernelValue
import proofs.«157365_j40089224741075_2_alg».proof.Proof.RefValue
import Idealize.ShloMosaic.Adequacy
import Idealize.ShloMosaic.Init

noncomputable section

namespace Cert.Proof

open Idealize.ShloMosaic Idealize.SL.Sem

/-- The kernel program as printed runs and leaves its arguments as launched. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten. -/
theorem preserves : Cert.preserves_Kernel_KernelIdeal := trivial

/-- Both programs end with the network's output on the arguments. -/
theorem algebraic : Cert.algebraic_KernelIdeal_ReferenceIdeal := by
  intro m ρ m' ρ' _ hagree
  refine ⟨fun c => Cert.Sage.out
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)), ?_, ?_⟩
  · exact (θ_run Cert.KernelIdeal.defs _ _).mono
      (fun _ h c => ⟨(h c).1.trans (Cert.Sage.KernelValue.result m ρ c), (h c).2⟩)
      (Cert.Sage.KernelRun.run_main (F := Ideal) m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7, a8, a9⟩ := hagree c
    rw [Cert.ReferenceIdeal.Read.val_main_v60_eq, Cert.Sage.RefValue.result, a0, a1, a2, a3, a4, a5, a6, a7, a8, a9]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
